-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x2 .f32) (main_arg4 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S_ : Shape := ⟨0, ![]⟩
abbrev S128x8 : Shape := ⟨2, ![128, 8]⟩
abbrev S2x1 : Shape := ⟨2, ![2, 1]⟩
abbrev S10x2x10000 : Shape := ⟨3, ![10, 2, 10000]⟩
abbrev S10000x128 : Shape := ⟨2, ![10000, 128]⟩
abbrev S2x2x10000 : Shape := ⟨3, ![2, 2, 10000]⟩
abbrev S8x10000 : Shape := ⟨2, ![8, 10000]⟩
abbrev S2x10000 : Shape := ⟨2, ![2, 10000]⟩
abbrev S1x2x10000 : Shape := ⟨3, ![1, 2, 10000]⟩
abbrev S10x10000x2 : Shape := ⟨3, ![10, 10000, 2]⟩
abbrev S100000x2 : Shape := ⟨2, ![100000, 2]⟩

abbrev nBuf : Space → Nat
  | .hbm => 15
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S128x128, .bf16⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S128x8, .f32⟩
  | .hbm, ⟨10, _⟩ => ⟨S128x8, .bf16⟩
  | .hbm, ⟨11, _⟩ => ⟨S2x1, .f32⟩
  | .hbm, ⟨12, _⟩ => ⟨S10x2x10000, .f32⟩
  | .hbm, ⟨13, _⟩ => ⟨S10x10000x2, .f32⟩
  | .hbm, ⟨14, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .bf16⟩
  | .local _ .vmem, ⟨5, _⟩ => ⟨S1x128, .f32⟩
  | .local _ .vmem, ⟨6, _⟩ => ⟨S128x8, .bf16⟩
  | .local _ .vmem, ⟨7, _⟩ => ⟨S2x1, .f32⟩
  | .local _ .vmem, ⟨8, _⟩ => ⟨S2x2x10000, .f32⟩
  | .local _ .vmem, ⟨9, _⟩ => ⟨S2x2x10000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x2x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S128_S1x128 : S128.ShapeCasts S1x128
  pads_S128x2_S128x8_000_060 : S128x2.Pads (![0, 0] : Fin 2 → Nat) ![0, 6] ![0, 0] S128x8
  h_S_ : 0 < S_.numel
  shapeCasts_S2_S2x1 : S2.ShapeCasts S2x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  slices_S8x10000_o0_0_S2x10000 : S8x10000.Slices ![0, 0] S2x10000
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x10000 : S2x1.Broadcasts S2x10000
  inb_S2x2x10000_S1x2x10000_0_0_0 : ∀ a, (![0, 0, 0] : Fin 3 → Nat) a + S1x2x10000.size a ≤ S2x2x10000.size a
  h_S1x2x10000 : 0 < S1x2x10000.numel
  shapeCasts_S1x2x10000_S2x10000 : S1x2x10000.ShapeCasts S2x10000
  shapeCasts_S2x10000_S1x2x10000 : S2x10000.ShapeCasts S1x2x10000
  inb_S2x2x10000_S1x2x10000_1_0_0 : ∀ a, (![1, 0, 0] : Fin 3 → Nat) a + S1x2x10000.size a ≤ S2x2x10000.size a
  transposes_S10x2x10000_S10x10000x2_0_2_1 : S10x2x10000.Transposes [0, 2, 1] S10x10000x2
  shapeCasts_S10x10000x2_S100000x2 : S10x10000x2.ShapeCasts S100000x2
  dot_S10000x128_S128x128_S10000x128_1_0_0_1_n_n_wf : DotDims.WF S10000x128 S128x128 S10000x128 [1] [0] [0] [1] [] []
  dot_S128x8_S10000x128_S8x10000_0_1_1_0_n_n_wf : DotDims.WF S128x8 S10000x128 S8x10000 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .bf16 = 32 ∨ (Rect.block (s := S128x8) S128x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1.size a ≤ S2x1.size a
  hwx0_5 : ∀ i : grid0.Coords, EltTy.bits .f32 = 32 ∨ (Rect.block (s := S2x1) S2x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x2x10000.size a ≤ S10x2x10000.size a
  hwx0_6 : ∀ i : grid0.Coords, EltTy.bits .f32 = 32 ∨ (Rect.block (s := S10x2x10000) S2x2x10000.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x8_S10000x128_S8x10000_0_1_1_0_n_n : DotDims S128x8 S10000x128 S8x10000 where
  lhsContracting := [0]
  rhsContracting := [1]
  lhsNonContracting := [1]
  rhsNonContracting := [0]
  lhsBatch := []
  rhsBatch := []
  wf := dot_S128x8_S10000x128_S8x10000_0_1_1_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2x2x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S_ : Shape := ⟨0, ![]⟩
abbrev S100000x2 : Shape := ⟨2, ![100000, 2]⟩
abbrev S1x2 : Shape := ⟨2, ![1, 2]⟩

abbrev nBuf : Space → Nat
  | .hbm => 16
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S100000x128, .f32⟩
  | .hbm, ⟨6, _⟩ => ⟨S1x128, .f32⟩
  | .hbm, ⟨7, _⟩ => ⟨S100000x128, .f32⟩
  | .hbm, ⟨8, _⟩ => ⟨S100000x128, .f32⟩
  | .hbm, ⟨9, _⟩ => ⟨S_, .f32⟩
  | .hbm, ⟨10, _⟩ => ⟨S100000x128, .f32⟩
  | .hbm, ⟨11, _⟩ => ⟨S100000x128, .f32⟩
  | .hbm, ⟨12, _⟩ => ⟨S100000x2, .f32⟩
  | .hbm, ⟨13, _⟩ => ⟨S1x2, .f32⟩
  | .hbm, ⟨14, _⟩ => ⟨S100000x2, .f32⟩
  | .hbm, ⟨15, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.K.Body.lean ====
/-
  The kernel body as a function of its staging buffers.

  At one grid point the body is handed two row blocks of the input (10000 rows of 128 entries each), the first layer's
  weights and shift, the second layer's weights (padded to eight columns) and shift, and the output block of shape
  2 × 2 × 10000. It computes, for each of the two row blocks, the transposed results (class by row) and stores the
  first block's at slab 0 of the output block and the second block's at slab 1. The two stored slabs tile the output
  block, so what the block holds afterwards is determined by the inputs alone: it is the pieces laid out over it.
-/
import proofs.«138238_g67224828117284_cont_sun_c4_631_35_alg».proof.Proof.Gen.Kernel.Launch
import proofs.«138238_g67224828117284_cont_sun_c4_631_35_alg».proof.Proof.Gen.Kernel.Skeleton
import proofs.«138238_g67224828117284_cont_sun_c4_631_35_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each input buffer whole, the output block slab by slab -/

abbrev rX : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0
abbrev rW2 : Rect S128x8 := Rect.unit (s := S128x8) ![0, 0] S128x8.size inb_S128x8_S128x8_0_0
abbrev rB2 : Rect S2x1 := Rect.unit (s := S2x1) ![0, 0] S2x1.size inb_S2x1_S2x1_0_0
abbrev rO0 : Rect S2x2x10000 := Rect.unit (s := S2x2x10000) ![0, 0, 0] S1x2x10000.size inb_S2x2x10000_S1x2x10000_0_0_0
abbrev rO1 : Rect S2x2x10000 := Rect.unit (s := S2x2x10000) ![1, 0, 0] S1x2x10000.size inb_S2x2x10000_S1x2x10000_1_0_0

/-! ## What the body leaves in the output block -/

/-- The output block after the body, from the contents of the six input buffers: slab 1 holds the second row block's
    results, slab 0 the first row block's (the later store is listed first). -/
def outBlock (x0 x1 : Vec F S10000x128 .f32) (w1 : Vec F S128x128 .bf16) (b1 : Vec F S1x128 .f32)
    (w2 : Vec F S128x8 .bf16) (b2 : Vec F S2x1 .f32) : Vec F S2x2x10000 .f32 :=
  View.canon [⟨rO1, k0_pay1 (k0_pay3 (View.ld x1 rX) (View.ld w1 rW1) (View.ld b1 rB1)) (View.ld w2 rW2) (View.ld b2 rB2)⟩,
    ⟨rO0, k0_pay2 (View.ld x0 rX) (View.ld w1 rW1) (View.ld b1 rB1) (View.ld w2 rW2) (View.ld b2 rB2)⟩]

/-- The two slabs tile the block, so every index of the block lies in one of them. -/
theorem cover_out (p1 p0 : Vec F S1x2x10000 .f32) (y : S2x2x10000.Idx) :
    ∃ pc ∈ ([⟨rO1, p1⟩, ⟨rO0, p0⟩] : List (View.Piece (Elt F) S2x2x10000 .f32)), y ∈ pc.1.set :=
  View.cover_of_tiled [⟨rO1, p1⟩, ⟨rO0, p0⟩] S1x2x10000.size (by rfl) y

/-! ## The body's triple -/

set_option maxHeartbeats 2000000 in
/-- Run on whole staging buffers — the six inputs at known contents, the output block at anything — the body ends
    with the inputs as they were and the output block at `outBlock` of the inputs. -/
theorem sound_kernel (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x8 .bf16) (harg5 : arg5.IsWhole) (arg6 : Memref sig .tc .vmem S2x1 .f32) (harg6 : arg6.IsWhole)
    (arg7 : Memref sig .tc .vmem S2x2x10000 .f32) (harg7 : arg7.IsWhole)
    (x0 x1 : Vec F S10000x128 .f32) (w1 : Vec F S128x128 .bf16) (b1 : Vec F S1x128 .f32) (w2 : Vec F S128x8 .bf16) (b2 : Vec F S2x1 .f32)
    (K : PUnit → sProp 𝕄) :
    iprop(owns (c : Thread nD τ) arg1 fullShare x0 ∗ owns (c : Thread nD τ) arg2 fullShare x1
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d)
        ∗ (iprop(owns (c : Thread nD τ) arg1 fullShare x0 ∗ owns (c : Thread nD τ) arg2 fullShare x1
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (outBlock x0 x1 w1 b1 w2 b2)) -∗ K ⟨⟩))
      ⊢ wp frame (wpE (defs₀ (F := F)) Variants.none c none) E
          (cc0__mlp_block i arg1 harg1 arg2 harg2 arg3 harg3 arg4 harg4 arg5 harg5 arg6 harg6 arg7 harg7) K := by
  simp only [cc0__mlp_block_eq_skeleton]; unfold cc0__mlp_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _ _)

end Cert.Kernel.Hand

end
-- ==== Proof.K.Entry.lean ====
/-
  The buffers' contents along @main's host lines.

  Before the region three stretches of host lines prepare the kernel's operands from the arguments: the first layer's
  weights converted, its shift reshaped to a row; the second layer's weights padded with zeros from two columns to
  eight; those converted, and the second shift reshaped to a column. After the region one stretch transposes the
  kernel's result and reshapes it. Here are the contents of every buffer at each of those moments, as functions of the
  launch contents — and, after the region, of what the region left in its result array.
-/
import proofs.«138238_g67224828117284_cont_sun_c4_631_35_alg».proof.Proof.Gen.Kernel.Launch

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch, -/
abbrev Va (c : Dev nD) : Valuation τ sig (Elt F) := fun b => m (c, b)
/-- after the first stretch of host lines (the first layer's weights converted, its shift reshaped to a row), -/
abbrev Vb (c : Dev nD) : Valuation τ sig (Elt F) := StableHlo.after hostOps0 (Va m c)
/-- after the padding of the second layer's weights to eight columns, -/
abbrev Vc (c : Dev nD) : Valuation τ sig (Elt F) := StableHlo.after hostOps0_1 (Vb m c)
/-- and when the region is entered (those weights converted, the second shift reshaped to a column). -/
abbrev Vd (c : Dev nD) : Valuation τ sig (Elt F) := StableHlo.after hostOps0_2 (Vc m c)
/-- The region-entry contents read at a TensorCore reference. -/
abbrev V (c : Dev nD) (b : Ref sig .tc) : Buf (Elt F) ((c : Thread nD τ).loc b) := Vd m c (Proc.devRef .tc b)

/-- The buffers' contents when the region is left, given what it left in its result array `o`: as when it was
    entered, but for that array. -/
def VeOf (c : Dev nD) (o : Buf (Elt F) ((c : Thread nD τ).loc main_v5)) : Valuation τ sig (Elt F) := fun b =>
  if h : b = Proc.devRef .tc main_v5 then cast (by rw [h]) o else Vd m c b

theorem VeOf_v5 (c : Dev nD) (o : Buf (Elt F) ((c : Thread nD τ).loc main_v5)) : VeOf m c o (Proc.devRef .tc main_v5) = o := by
  unfold VeOf; rw [dif_pos rfl]; rfl
theorem VeOf_of_ne (c : Dev nD) (o : Buf (Elt F) ((c : Thread nD τ).loc main_v5)) (b : DevRef τ sig) (hb : b ≠ Proc.devRef .tc main_v5) :
    VeOf m c o b = Vd m c b := by
  unfold VeOf; rw [dif_neg hb]

/-- The buffers' contents at the end: the last stretch run from there. -/
abbrev VfOf (c : Dev nD) (o : Buf (Elt F) ((c : Thread nD τ).loc main_v5)) : Valuation τ sig (Elt F) := StableHlo.after hostOps1 (VeOf m c o)

end Cert.Kernel.Hand

end
-- ==== Proof.K.Data.lean ====
/-
  The proof data of the one pipeline, and the body's obligation at every grid point.

  When the region is entered every array holds what the host lines before it left (`V`). At grid point `t` each input
  window's staging buffer holds that window's block of its array there (`iblk`) — the two row-block windows are two
  windows on ONE array, the input, at block rows `2t` and `2t + 1`; the four parameter windows are whole arrays,
  fetched once — and the body leaves the inputs in place and the output block at `outBlock` of them. The input array is
  read through two windows, each holding half of its share.
-/
import proofs.«138238_g67224828117284_cont_sun_c4_631_35_alg».proof.Proof.K.Body
import proofs.«138238_g67224828117284_cont_sun_c4_631_35_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where the
    pipeline does not fetch it the block index has not moved, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the
    pipeline does not fetch it the block index has not moved, and the body left the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the
    pipeline does not fetch it the block index has not moved, and the body left the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the
    pipeline does not fetch it the block index has not moved, and the body left the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the
    pipeline does not fetch it the block index has not moved, and the body left the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where the
    pipeline does not fetch it the block index has not moved, and the body left the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block and
    the output's at `outBlock` of the six input blocks; the invariant the scoped buffers no window stages (there are
    none); nothing owed; the input array's share halved between its two windows, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Split.lean ====
/-
  One array behind two windows.

  The input array is handed to the kernel twice: one window walks its even row blocks, the other its odd ones. The
  launch holds the array once, whole; the pipeline wants one holding per window. Both windows only read, so the array's
  share is cut in two halves, one per window, each at the same contents. The five other arrays are behind one window
  each and pass as they are.
-/
import proofs.«138238_g67224828117284_cont_sun_c4_631_35_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the seven windows are six: the input (behind two windows), the converted first-layer
    weights, the first shift as a row, the padded converted second-layer weights, the second shift as a column, and the
    result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold Pipeline.arrBufs
  exact bigSep_eq_bigSepL_of_eq [main_arg0, main_v0, main_v1, main_v3, main_v4, main_v5] (by decide) (by decide) _

/-- The pipeline's holdings of the arrays, window by window: the input array at one half share under each of its two
    windows, every other array whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc (Pipeline.arrRef spec0 0)) ↦{fullShare.left} G 0)
          ∗ (((c : Thread nD τ).loc (Pipeline.arrRef spec0 1)) ↦{fullShare.right} G 1)
          ∗ (((c : Thread nD τ).loc (Pipeline.arrRef spec0 2)) ↦{fullShare} G 2)
          ∗ (((c : Thread nD τ).loc (Pipeline.arrRef spec0 3)) ↦{fullShare} G 3)
          ∗ (((c : Thread nD τ).loc (Pipeline.arrRef spec0 4)) ↦{fullShare} G 4)
          ∗ (((c : Thread nD τ).loc (Pipeline.arrRef spec0 5)) ↦{fullShare} G 5)
          ∗ (((c : Thread nD τ).loc (Pipeline.arrRef spec0 6)) ↦{fullShare} G 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY: the six arrays, each whole at the region-entry contents, make the pipeline's holdings at entry — the input
    array's share cut in its two halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H2, H3, H4, H5, H6⟩
  ihave H := (pointsTo_share (PosShare.mem_left_op_right fullShare)).1 $$ H0
  icases H with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

end Cert.Kernel.Hand

end
-- ==== Proof.K.Run.lean ====
/-
  The run of the whole program.

  @main is three stretches of host lines (the first layer's weights converted and its shift reshaped to a row; the
  second layer's weights padded to eight columns; those converted and the second shift reshaped to a column), the one
  kernel region over a grid of five points, and a last stretch that transposes the kernel's 10 × 2 × 10000 result to
  10 × 10000 × 2 and reshapes it to 100000 × 2.

  The host stretches before the region run over all of the core's unscoped buffers. The region takes the six arrays
  behind its windows — the input array's share cut in two, one half per window — and hands them back with the result
  array at what the five write-backs made it. The last stretch touches only the result array and the two buffers it
  writes, so it runs holding those three; the argument arrays ride beside it untouched and are read back at the end.
-/
import proofs.«138238_g67224828117284_cont_sun_c4_631_35_alg».proof.Proof.K.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm

/-- What rides beside the buffers through the host lines: what the core owes, which is nothing. -/
abbrev R (c : Dev nD) : sProp 𝕄 := iprop(∃ W, owes (c : Thread nD τ) (0 : CellTallies nD τ sig Unit) W)

/-! ## The host stretches before the region -/

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (Va m) R
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) fresh0_1 (Vb m) R
def seg2 : Pipeline.HostSeg (Name := ℕ) (U := UR sig nD τ) (pcfgs (F := F)) defs₀ 𝒱₀ L lv :=
  Pipeline.HostSeg.ofOps _ _ _ _ _ (Pipeline.ucRefs τ sig) hostOps0_2
    (fun op h => Pipeline.sub_ucRefs op ((List.forall_iff_forall_mem.mp hostOps0_2_sub) op h)) fresh0_2 (Vc m) R

/-! ## The host stretch after the region -/

/-- The three buffers the last stretch touches: the kernel's result, its transpose, and the final result. -/
abbrev S3 : Finset (DevRef τ sig) := {Proc.devRef .tc main_v5, Proc.devRef .tc main_v6, Proc.devRef .tc main_v7}

theorem tail_sub : ∀ op ∈ (hostOps1 : List (HloOp τ sig (Elt F))), op.bufs ⊆ S3 := by
  intro op h
  simp only [hostOps1, List.mem_cons, List.mem_nil_iff, or_false] at h
  rcases h with rfl | rfl
  · rw [StableHlo.unary_bufs]; intro b hb
    simp only [Finset.mem_insert, Finset.mem_singleton] at hb ⊢; tauto
  · rw [StableHlo.reshape_bufs]; intro b hb
    simp only [Finset.mem_insert, Finset.mem_singleton] at hb ⊢; tauto

/-- The result array after the five write-backs, as the library computes it from the proof data. -/
abbrev outArr (c : Dev nD) : Buf (Elt F) ((c : Thread nD τ).loc main_v5) := (dats m 0 c).arrAt 6 cfg0.N

/-- The buffers' contents when the region is left: as when it was entered, but for the result array. -/
abbrev Ve (c : Dev nD) : Valuation τ sig (Elt F) := VeOf m c (outArr m c)

theorem Ve_v5 (c : Dev nD) : Ve m c (Proc.devRef .tc main_v5) = outArr m c := VeOf_v5 m c _
theorem Ve_of_ne (c : Dev nD) (b : DevRef τ sig) (hb : b ≠ Proc.devRef .tc main_v5) : Ve m c b = Vd m c b := VeOf_of_ne m c _ b hb

/-- The buffers' contents at the end. -/
abbrev Vf (c : Dev nD) : Valuation τ sig (Elt F) := VfOf m c (outArr m c)

/-- What rides beside the last stretch: the input array under its first window, and the four parameter arrays. -/
abbrev Keep (c : Dev nD) : sProp 𝕄 :=
  iprop((((c : Thread nD τ).loc (Pipeline.arrRef spec0 0)) ↦{fullShare.left} (dats m 0 c).arrAt 0 cfg0.N)
    ∗ (((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_arg4) ↦{fullShare} V m c main_arg4))

def seg3 : Pipeline.HostSeg (Name := ℕ) (U := UR sig nD τ) (pcfgs (F := F)) defs₀ 𝒱₀ L lv :=
  Pipeline.HostSeg.ofOps _ _ _ _ _ S3 hostOps1 tail_sub fresh1 (Ve m) (fun c => iprop(Keep m c ∗ R c))

/-! ## The region -/

theorem held_S3 (c : Dev nD) (W : Valuation τ sig (Elt F)) :
    (StableHlo.held (c : Thread nD τ) S3 W : sProp 𝕄)
      = iprop((((c : Thread nD τ).1, Proc.devRef .tc main_v5) ↦{fullShare} W (Proc.devRef .tc main_v5))
          ∗ (((c : Thread nD τ).1, Proc.devRef .tc main_v6) ↦{fullShare} W (Proc.devRef .tc main_v6))
          ∗ (((c : Thread nD τ).1, Proc.devRef .tc main_v7) ↦{fullShare} W (Proc.devRef .tc main_v7))) := by
  unfold StableHlo.held
  exact bigSep_eq_bigSepL_of_eq [Proc.devRef .tc main_v5, Proc.devRef .tc main_v6, Proc.devRef .tc main_v7] (by decide) (by decide) _

set_option backward.isDefEq.respectTransparency.types false in
/-- THE REGION: the decided layout (two windows on one array), no semaphore of the kernel's own, the body obligation;
    entered from what the host lines left — the six arrays into the pipeline, the input's share halved, everything else
    bypassing —, left with the result array at what the write-backs made it. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0_2 (Vc m c)) ∗ R c)
  post c := iprop(StableHlo.held (c : Thread nD τ) S3 (Ve m c) ∗ Keep m c ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0_2 (Vc m c)) = unscopedBufs c (V m c) from
        (Pipeline.unscopedBufs_held c _).symm,
      Pipeline.unscopedBufs_split₀ cfgs 0 winFacts₀0.arr_unscoped c (V m c)]
    iintro ⟨⟨⟨Hab, Hur⟩, HO⟩, -, -⟩
    ihave Ha := (arrays_of_arrBufs m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_chain, unscopedRest0_eq, held_S3, Ve_v5, Ve_of_ne m c _ (by decide), Ve_of_ne m c _ (by decide)]
    iintro ⟨⟨H0, -, -, -, -, -, H6⟩, HO, -, ⟨A1, A2, A3, A4, -, -, -, H6', H7'⟩⟩
    imodintro
    isplitl [H6 H6' H7']
    · isplitl [H6]; · iexact H6
      isplitl [H6']; · iexact H6'
      iexact H7'
    isplitl [H0 A1 A2 A3 A4]
    · isplitl [H0]; · iexact H0
      isplitl [A1]; · iexact A1
      isplitl [A2]; · iexact A2
      isplitl [A3]; · iexact A3
      iexact A4
    · unfold Pipeline.Dat.owesAt Pipeline.owesWithin
      icases HO with ⟨%W, -, HO⟩; iexists W; iexact HO

/-- @main as the list of the five. -/
abbrev segs : List (Pipeline.Seg (pcfgs (F := F)) adm (dats m) () defs₀ 𝒱₀ L lv) :=
  [.host (seg0 m), .host (seg1 m), .host (seg2 m), .region (reg0 m), .host (seg3 m)]

/-- What the run ends holding that the claims read: the three buffers of the last stretch, and what rode beside it. -/
abbrev Tₙ (c : Dev nD) : sProp 𝕄 := iprop(StableHlo.held (c : Thread nD τ) S3 (Vf m c) ∗ Keep m c)

/-- The physical post: the final result at the last stretch's output, the five argument arrays at what the run left
    under them. -/
def QC : PUnit × MemSt nD τ sig (Elt F) → Prop := fun r =>
  ∀ c : Dev nD, r.2.mem ((c : Thread nD τ).loc main_v7) = Vf m c (Proc.devRef .tc main_v7)
    ∧ r.2.mem ((c : Thread nD τ).loc main_arg0) = (dats m 0 c).arrAt 0 cfg0.N
    ∧ r.2.mem ((c : Thread nD τ).loc main_arg1) = V m c main_arg1
    ∧ r.2.mem ((c : Thread nD τ).loc main_arg2) = V m c main_arg2
    ∧ r.2.mem ((c : Thread nD τ).loc main_arg3) = V m c main_arg3
    ∧ r.2.mem ((c : Thread nD τ).loc main_arg4) = V m c main_arg4

set_option backward.isDefEq.respectTransparency.types false in
/-- At the compiled mesh, for any float values, from any memory with zero counters: every weakly fair execution of
    @main on the TensorCore terminates, nothing faulting, and every final state is as `QC` says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by
      rw [show main (F := F) c = Pipeline.Seg.run (segs m) from (main_chain c).trans (Pipeline.Seg.run_eq_chain (segs m)).symm])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Va m c) ∗ R c)) (Tₙ := Tₙ m)
    (hch := ⟨fun _ => .rfl, fun _ => .rfl, fun _ => .rfl, fun _ => .rfl, fun _ => .rfl, fun c => by
      show iprop(StableHlo.held (c : Thread nD τ) S3 (StableHlo.after hostOps1 (Ve m c)) ∗ (Keep m c ∗ R c))
        ⊢ iprop(Tₙ m c ∗ ∃ W, owes (c : Thread nD τ) (0 : CellTallies nD τ sig Unit) W)
      iintro ⟨Hh, Hk, HR⟩
      isplitr [HR]
      · isplitl [Hh]; · iexact Hh
        iexact Hk
      iexact HR⟩)
    (hinit := by
      refine Pipeline.initEach L lv fun c => ?_
      rw [show unscopedBufs c (fun b => m ((c : Thread nD τ).loc b)) = StableHlo.held (c : Thread nD τ) (Pipeline.ucRefs τ sig) (Va m c) from
        Pipeline.unscopedBufs_held c (Va m c)]
      iintro ⟨⟨Hh, -, HO, -, -, -⟩, -⟩
      imodintro
      isplitl [Hh]; · iexact Hh
      iexists ∅; iexact HO)
    (QY := fun c s => s.mem ((c : Thread nD τ).loc main_v7) = Vf m c (Proc.devRef .tc main_v7)
      ∧ s.mem ((c : Thread nD τ).loc main_arg0) = (dats m 0 c).arrAt 0 cfg0.N
      ∧ s.mem ((c : Thread nD τ).loc main_arg1) = V m c main_arg1
      ∧ s.mem ((c : Thread nD τ).loc main_arg2) = V m c main_arg2
      ∧ s.mem ((c : Thread nD τ).loc main_arg3) = V m c main_arg3
      ∧ s.mem ((c : Thread nD τ).loc main_arg4) = V m c main_arg4)
    (hfin := fun c s' => by
      dsimp only [Tₙ, Keep]; rw [held_S3]
      iintro ⟨⟨⟨-, -, H7⟩, H0, A1, A2, A3, A4⟩, HSI⟩
      icombine HSI H7 gives %h7
      icombine HSI H0 gives %h0
      icombine HSI A1 gives %h1
      icombine HSI A2 gives %h2
      icombine HSI A3 gives %h3
      icombine HSI A4 gives %h4
      imodintro
      isplitr
      · ipureintro
        exact ⟨Buf.eq_of_forall_mem_univ h7, Buf.eq_of_forall_mem_univ h0, Buf.eq_of_forall_mem_univ h1,
          Buf.eq_of_forall_mem_univ h2, Buf.eq_of_forall_mem_univ h3, Buf.eq_of_forall_mem_univ h4⟩
      iexact HSI)
    (hQ := fun _ h => h)

end Cert.Kernel.Hand

end
-- ==== Proof.K.Frame.lean ====
/-
  The frame: the program runs to the end, nothing faults, and the five argument arrays end as they were launched.

  No host line writes an argument array (each writes only its own result buffer), so the region finds every argument
  as launched; the kernel only reads its input windows, so the input array under its window ends as the region found
  it; and the last stretch touches neither.
-/
import proofs.«138238_g67224828117284_cont_sun_c4_631_35_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The first stretch writes the converted first-layer weights, the first shift as a row, and an integer zero; -/
theorem nw0 (b : Ref sig .tc) (hb : b ≠ main_v0 ∧ b ≠ main_v1 ∧ b ≠ main_c) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, StableHlo.nullary_writes, Finset.mem_singleton] <;>
    exact StableHlo.devRef_ne_of_ne ‹_›

/-- the second the padding value and the padded second-layer weights; -/
theorem nw1 (b : Ref sig .tc) (hb : b ≠ main_call0_v0 ∧ b ≠ main_v2) :
    ∀ op ∈ (hostOps0_1 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.binary_writes, Finset.mem_singleton] <;>
    exact StableHlo.devRef_ne_of_ne ‹_›

/-- the third the converted padded weights and the second shift as a column. -/
theorem nw2 (b : Ref sig .tc) (hb : b ≠ main_v3 ∧ b ≠ main_v4) :
    ∀ op ∈ (hostOps0_2 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- A buffer none of the three stretches writes reaches the region as launched. -/
theorem V_of_not_written (c : Dev nD) (b : Ref sig .tc)
    (hb : b ≠ main_v0 ∧ b ≠ main_v1 ∧ b ≠ main_c ∧ b ≠ main_call0_v0 ∧ b ≠ main_v2 ∧ b ≠ main_v3 ∧ b ≠ main_v4) :
    V m c b = m ((c : Thread nD τ).loc b) := by
  obtain ⟨h0, h1, h2, h3, h4, h5, h6⟩ := hb
  show StableHlo.after hostOps0_2 (StableHlo.after hostOps0_1 (StableHlo.after hostOps0 (Va m c))) (Proc.devRef .tc b) = _
  rw [StableHlo.after_of_forall_not_mem (b := Proc.devRef .tc b) _ _ (nw2 b ⟨h5, h6⟩),
    StableHlo.after_of_forall_not_mem (b := Proc.devRef .tc b) _ _ (nw1 b ⟨h3, h4⟩),
    StableHlo.after_of_forall_not_mem (b := Proc.devRef .tc b) _ _ (nw0 b ⟨h0, h1, h2⟩)]

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)

/-- The input array under its first window ends as launched: an input window's array is never written. -/
theorem arr0_final (c : Dev nD) : (dats m 0 c).arrAt 0 cfg0.N = m ((c : Thread nD τ).loc main_arg0) :=
  ((dats m 0 c).arrAt_in 0 rfl _).trans ((A_eq m c 0).trans (V_main_arg0 m c))

/-- The run with the post the claims read: the final result at the last stretch's output of the kernel's result
    array, the five arguments as launched. -/
theorem run_args : θ_run defs (onTc (τ := τ) (main (F := F))) ⟨m, fun _ => 0, ρ⟩ (fun r => ∀ c : Dev nD,
      r.2.mem ((c.tc : Thread nD τ).loc main_v7) = Vf m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1, (h c).2.1.trans (arr0_final m c), (h c).2.2.1.trans (V_main_arg1 m c),
    (h c).2.2.2.1.trans (V_main_arg2 m c), (h c).2.2.2.2.1.trans (V_main_arg3 m c), (h c).2.2.2.2.2.trans (V_main_arg4 m c)⟩) (run_main m ρ)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_args m ρ)

end Cert.Kernel.Hand

end
-- ==== Proof.KI.Body.lean ====
/-
  The kernel body as a function of its staging buffers.

  At one grid point the body is handed two row blocks of the input (10000 rows of 128 entries each), the first layer's
  weights and shift, the second layer's weights (padded to eight columns) and shift, and the output block of shape
  2 × 2 × 10000. It computes, for each of the two row blocks, the transposed results (class by row) and stores the
  first block's at slab 0 of the output block and the second block's at slab 1. The two stored slabs tile the output
  block, so what the block holds afterwards is determined by the inputs alone: it is the pieces laid out over it.
-/
import proofs.«138238_g67224828117284_cont_sun_c4_631_35_alg».proof.Proof.Gen.KernelIdeal.Launch
import proofs.«138238_g67224828117284_cont_sun_c4_631_35_alg».proof.Proof.Gen.KernelIdeal.Skeleton
import proofs.«138238_g67224828117284_cont_sun_c4_631_35_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each input buffer whole, the output block slab by slab -/

abbrev rX : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0
abbrev rW2 : Rect S128x8 := Rect.unit (s := S128x8) ![0, 0] S128x8.size inb_S128x8_S128x8_0_0
abbrev rB2 : Rect S2x1 := Rect.unit (s := S2x1) ![0, 0] S2x1.size inb_S2x1_S2x1_0_0
abbrev rO0 : Rect S2x2x10000 := Rect.unit (s := S2x2x10000) ![0, 0, 0] S1x2x10000.size inb_S2x2x10000_S1x2x10000_0_0_0
abbrev rO1 : Rect S2x2x10000 := Rect.unit (s := S2x2x10000) ![1, 0, 0] S1x2x10000.size inb_S2x2x10000_S1x2x10000_1_0_0

/-! ## What the body leaves in the output block -/

/-- The output block after the body, from the contents of the six input buffers: slab 1 holds the second row block's
    results, slab 0 the first row block's (the later store is listed first). -/
def outBlock (x0 x1 : Vec F S10000x128 .f32) (w1 : Vec F S128x128 .bf16) (b1 : Vec F S1x128 .f32)
    (w2 : Vec F S128x8 .bf16) (b2 : Vec F S2x1 .f32) : Vec F S2x2x10000 .f32 :=
  View.canon [⟨rO1, k0_pay1 (k0_pay3 (View.ld x1 rX) (View.ld w1 rW1) (View.ld b1 rB1)) (View.ld w2 rW2) (View.ld b2 rB2)⟩,
    ⟨rO0, k0_pay2 (View.ld x0 rX) (View.ld w1 rW1) (View.ld b1 rB1) (View.ld w2 rW2) (View.ld b2 rB2)⟩]

/-- The two slabs tile the block, so every index of the block lies in one of them. -/
theorem cover_out (p1 p0 : Vec F S1x2x10000 .f32) (y : S2x2x10000.Idx) :
    ∃ pc ∈ ([⟨rO1, p1⟩, ⟨rO0, p0⟩] : List (View.Piece (Elt F) S2x2x10000 .f32)), y ∈ pc.1.set :=
  View.cover_of_tiled [⟨rO1, p1⟩, ⟨rO0, p0⟩] S1x2x10000.size (by rfl) y

/-! ## The body's triple -/

set_option maxHeartbeats 2000000 in
/-- Run on whole staging buffers — the six inputs at known contents, the output block at anything — the body ends
    with the inputs as they were and the output block at `outBlock` of the inputs. -/
theorem sound_kernel (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x8 .bf16) (harg5 : arg5.IsWhole) (arg6 : Memref sig .tc .vmem S2x1 .f32) (harg6 : arg6.IsWhole)
    (arg7 : Memref sig .tc .vmem S2x2x10000 .f32) (harg7 : arg7.IsWhole)
    (x0 x1 : Vec F S10000x128 .f32) (w1 : Vec F S128x128 .bf16) (b1 : Vec F S1x128 .f32) (w2 : Vec F S128x8 .bf16) (b2 : Vec F S2x1 .f32)
    (K : PUnit → sProp 𝕄) :
    iprop(owns (c : Thread nD τ) arg1 fullShare x0 ∗ owns (c : Thread nD τ) arg2 fullShare x1
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d)
        ∗ (iprop(owns (c : Thread nD τ) arg1 fullShare x0 ∗ owns (c : Thread nD τ) arg2 fullShare x1
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (outBlock x0 x1 w1 b1 w2 b2)) -∗ K ⟨⟩))
      ⊢ wp frame (wpE (defs₀ (F := F)) Variants.none c none) E
          (cc0__mlp_block i arg1 harg1 arg2 harg2 arg3 harg3 arg4 harg4 arg5 harg5 arg6 harg6 arg7 harg7) K := by
  simp only [cc0__mlp_block_eq_skeleton]; unfold cc0__mlp_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _ _)

end Cert.KernelIdeal.Hand

end
-- ==== Proof.KI.Entry.lean ====
/-
  The buffers' contents along @main's host lines.

  Before the region three stretches of host lines prepare the kernel's operands from the arguments: the first layer's
  weights converted, its shift reshaped to a row; the second layer's weights padded with zeros from two columns to
  eight; those converted, and the second shift reshaped to a column. After the region one stretch transposes the
  kernel's result and reshapes it. Here are the contents of every buffer at each of those moments, as functions of the
  launch contents — and, after the region, of what the region left in its result array.
-/
import proofs.«138238_g67224828117284_cont_sun_c4_631_35_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch, -/
abbrev Va (c : Dev nD) : Valuation τ sig (Elt F) := fun b => m (c, b)
/-- after the first stretch of host lines (the first layer's weights converted, its shift reshaped to a row), -/
abbrev Vb (c : Dev nD) : Valuation τ sig (Elt F) := StableHlo.after hostOps0 (Va m c)
/-- after the padding of the second layer's weights to eight columns, -/
abbrev Vc (c : Dev nD) : Valuation τ sig (Elt F) := StableHlo.after hostOps0_1 (Vb m c)
/-- and when the region is entered (those weights converted, the second shift reshaped to a column). -/
abbrev Vd (c : Dev nD) : Valuation τ sig (Elt F) := StableHlo.after hostOps0_2 (Vc m c)
/-- The region-entry contents read at a TensorCore reference. -/
abbrev V (c : Dev nD) (b : Ref sig .tc) : Buf (Elt F) ((c : Thread nD τ).loc b) := Vd m c (Proc.devRef .tc b)

/-- The buffers' contents when the region is left, given what it left in its result array `o`: as when it was
    entered, but for that array. -/
def VeOf (c : Dev nD) (o : Buf (Elt F) ((c : Thread nD τ).loc main_v5)) : Valuation τ sig (Elt F) := fun b =>
  if h : b = Proc.devRef .tc main_v5 then cast (by rw [h]) o else Vd m c b

theorem VeOf_v5 (c : Dev nD) (o : Buf (Elt F) ((c : Thread nD τ).loc main_v5)) : VeOf m c o (Proc.devRef .tc main_v5) = o := by
  unfold VeOf; rw [dif_pos rfl]; rfl
theorem VeOf_of_ne (c : Dev nD) (o : Buf (Elt F) ((c : Thread nD τ).loc main_v5)) (b : DevRef τ sig) (hb : b ≠ Proc.devRef .tc main_v5) :
    VeOf m c o b = Vd m c b := by
  unfold VeOf; rw [dif_neg hb]

/-- The buffers' contents at the end: the last stretch run from there. -/
abbrev VfOf (c : Dev nD) (o : Buf (Elt F) ((c : Thread nD τ).loc main_v5)) : Valuation τ sig (Elt F) := StableHlo.after hostOps1 (VeOf m c o)

end Cert.KernelIdeal.Hand

end
-- ==== Proof.KI.Data.lean ====
/-
  The proof data of the one pipeline, and the body's obligation at every grid point.

  When the region is entered every array holds what the host lines before it left (`V`). At grid point `t` each input
  window's staging buffer holds that window's block of its array there (`iblk`) — the two row-block windows are two
  windows on ONE array, the input, at block rows `2t` and `2t + 1`; the four parameter windows are whole arrays,
  fetched once — and the body leaves the inputs in place and the output block at `outBlock` of them. The input array is
  read through two windows, each holding half of its share.
-/
import proofs.«138238_g67224828117284_cont_sun_c4_631_35_alg».proof.Proof.KI.Body
import proofs.«138238_g67224828117284_cont_sun_c4_631_35_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where the
    pipeline does not fetch it the block index has not moved, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the
    pipeline does not fetch it the block index has not moved, and the body left the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the
    pipeline does not fetch it the block index has not moved, and the body left the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the
    pipeline does not fetch it the block index has not moved, and the body left the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the
    pipeline does not fetch it the block index has not moved, and the body left the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where the
    pipeline does not fetch it the block index has not moved, and the body left the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block and
    the output's at `outBlock` of the six input blocks; the invariant the scoped buffers no window stages (there are
    none); nothing owed; the input array's share halved between its two windows, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Split.lean ====
/-
  One array behind two windows.

  The input array is handed to the kernel twice: one window walks its even row blocks, the other its odd ones. The
  launch holds the array once, whole; the pipeline wants one holding per window. Both windows only read, so the array's
  share is cut in two halves, one per window, each at the same contents. The five other arrays are behind one window
  each and pass as they are.
-/
import proofs.«138238_g67224828117284_cont_sun_c4_631_35_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the seven windows are six: the input (behind two windows), the converted first-layer
    weights, the first shift as a row, the padded converted second-layer weights, the second shift as a column, and the
    result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold Pipeline.arrBufs
  exact bigSep_eq_bigSepL_of_eq [main_arg0, main_v0, main_v1, main_v3, main_v4, main_v5] (by decide) (by decide) _

/-- The pipeline's holdings of the arrays, window by window: the input array at one half share under each of its two
    windows, every other array whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc (Pipeline.arrRef spec0 0)) ↦{fullShare.left} G 0)
          ∗ (((c : Thread nD τ).loc (Pipeline.arrRef spec0 1)) ↦{fullShare.right} G 1)
          ∗ (((c : Thread nD τ).loc (Pipeline.arrRef spec0 2)) ↦{fullShare} G 2)
          ∗ (((c : Thread nD τ).loc (Pipeline.arrRef spec0 3)) ↦{fullShare} G 3)
          ∗ (((c : Thread nD τ).loc (Pipeline.arrRef spec0 4)) ↦{fullShare} G 4)
          ∗ (((c : Thread nD τ).loc (Pipeline.arrRef spec0 5)) ↦{fullShare} G 5)
          ∗ (((c : Thread nD τ).loc (Pipeline.arrRef spec0 6)) ↦{fullShare} G 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY: the six arrays, each whole at the region-entry contents, make the pipeline's holdings at entry — the input
    array's share cut in its two halves. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H2, H3, H4, H5, H6⟩
  ihave H := (pointsTo_share (PosShare.mem_left_op_right fullShare)).1 $$ H0
  icases H with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

end Cert.KernelIdeal.Hand

end
-- ==== Proof.KI.Run.lean ====
/-
  The run of the whole program.

  @main is three stretches of host lines (the first layer's weights converted and its shift reshaped to a row; the
  second layer's weights padded to eight columns; those converted and the second shift reshaped to a column), the one
  kernel region over a grid of five points, and a last stretch that transposes the kernel's 10 × 2 × 10000 result to
  10 × 10000 × 2 and reshapes it to 100000 × 2.

  The host stretches before the region run over all of the core's unscoped buffers. The region takes the six arrays
  behind its windows — the input array's share cut in two, one half per window — and hands them back with the result
  array at what the five write-backs made it. The last stretch touches only the result array and the two buffers it
  writes, so it runs holding those three; the argument arrays ride beside it untouched and are read back at the end.
-/
import proofs.«138238_g67224828117284_cont_sun_c4_631_35_alg».proof.Proof.KI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm

/-- What rides beside the buffers through the host lines: what the core owes, which is nothing. -/
abbrev R (c : Dev nD) : sProp 𝕄 := iprop(∃ W, owes (c : Thread nD τ) (0 : CellTallies nD τ sig Unit) W)

/-! ## The host stretches before the region -/

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (Va m) R
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) fresh0_1 (Vb m) R
def seg2 : Pipeline.HostSeg (Name := ℕ) (U := UR sig nD τ) (pcfgs (F := F)) defs₀ 𝒱₀ L lv :=
  Pipeline.HostSeg.ofOps _ _ _ _ _ (Pipeline.ucRefs τ sig) hostOps0_2
    (fun op h => Pipeline.sub_ucRefs op ((List.forall_iff_forall_mem.mp hostOps0_2_sub) op h)) fresh0_2 (Vc m) R

/-! ## The host stretch after the region -/

/-- The three buffers the last stretch touches: the kernel's result, its transpose, and the final result. -/
abbrev S3 : Finset (DevRef τ sig) := {Proc.devRef .tc main_v5, Proc.devRef .tc main_v6, Proc.devRef .tc main_v7}

theorem tail_sub : ∀ op ∈ (hostOps1 : List (HloOp τ sig (Elt F))), op.bufs ⊆ S3 := by
  intro op h
  simp only [hostOps1, List.mem_cons, List.mem_nil_iff, or_false] at h
  rcases h with rfl | rfl
  · rw [StableHlo.unary_bufs]; intro b hb
    simp only [Finset.mem_insert, Finset.mem_singleton] at hb ⊢; tauto
  · rw [StableHlo.reshape_bufs]; intro b hb
    simp only [Finset.mem_insert, Finset.mem_singleton] at hb ⊢; tauto

/-- The result array after the five write-backs, as the library computes it from the proof data. -/
abbrev outArr (c : Dev nD) : Buf (Elt F) ((c : Thread nD τ).loc main_v5) := (dats m 0 c).arrAt 6 cfg0.N

/-- The buffers' contents when the region is left: as when it was entered, but for the result array. -/
abbrev Ve (c : Dev nD) : Valuation τ sig (Elt F) := VeOf m c (outArr m c)

theorem Ve_v5 (c : Dev nD) : Ve m c (Proc.devRef .tc main_v5) = outArr m c := VeOf_v5 m c _
theorem Ve_of_ne (c : Dev nD) (b : DevRef τ sig) (hb : b ≠ Proc.devRef .tc main_v5) : Ve m c b = Vd m c b := VeOf_of_ne m c _ b hb

/-- The buffers' contents at the end. -/
abbrev Vf (c : Dev nD) : Valuation τ sig (Elt F) := VfOf m c (outArr m c)

/-- What rides beside the last stretch: the input array under its first window, and the four parameter arrays. -/
abbrev Keep (c : Dev nD) : sProp 𝕄 :=
  iprop((((c : Thread nD τ).loc (Pipeline.arrRef spec0 0)) ↦{fullShare.left} (dats m 0 c).arrAt 0 cfg0.N)
    ∗ (((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_arg4) ↦{fullShare} V m c main_arg4))

def seg3 : Pipeline.HostSeg (Name := ℕ) (U := UR sig nD τ) (pcfgs (F := F)) defs₀ 𝒱₀ L lv :=
  Pipeline.HostSeg.ofOps _ _ _ _ _ S3 hostOps1 tail_sub fresh1 (Ve m) (fun c => iprop(Keep m c ∗ R c))

/-! ## The region -/

theorem held_S3 (c : Dev nD) (W : Valuation τ sig (Elt F)) :
    (StableHlo.held (c : Thread nD τ) S3 W : sProp 𝕄)
      = iprop((((c : Thread nD τ).1, Proc.devRef .tc main_v5) ↦{fullShare} W (Proc.devRef .tc main_v5))
          ∗ (((c : Thread nD τ).1, Proc.devRef .tc main_v6) ↦{fullShare} W (Proc.devRef .tc main_v6))
          ∗ (((c : Thread nD τ).1, Proc.devRef .tc main_v7) ↦{fullShare} W (Proc.devRef .tc main_v7))) := by
  unfold StableHlo.held
  exact bigSep_eq_bigSepL_of_eq [Proc.devRef .tc main_v5, Proc.devRef .tc main_v6, Proc.devRef .tc main_v7] (by decide) (by decide) _

set_option backward.isDefEq.respectTransparency.types false in
/-- THE REGION: the decided layout (two windows on one array), no semaphore of the kernel's own, the body obligation;
    entered from what the host lines left — the six arrays into the pipeline, the input's share halved, everything else
    bypassing —, left with the result array at what the write-backs made it. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0_2 (Vc m c)) ∗ R c)
  post c := iprop(StableHlo.held (c : Thread nD τ) S3 (Ve m c) ∗ Keep m c ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0_2 (Vc m c)) = unscopedBufs c (V m c) from
        (Pipeline.unscopedBufs_held c _).symm,
      Pipeline.unscopedBufs_split₀ cfgs 0 winFacts₀0.arr_unscoped c (V m c)]
    iintro ⟨⟨⟨Hab, Hur⟩, HO⟩, -, -⟩
    ihave Ha := (arrays_of_arrBufs m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_chain, unscopedRest0_eq, held_S3, Ve_v5, Ve_of_ne m c _ (by decide), Ve_of_ne m c _ (by decide)]
    iintro ⟨⟨H0, -, -, -, -, -, H6⟩, HO, -, ⟨A1, A2, A3, A4, -, -, -, H6', H7'⟩⟩
    imodintro
    isplitl [H6 H6' H7']
    · isplitl [H6]; · iexact H6
      isplitl [H6']; · iexact H6'
      iexact H7'
    isplitl [H0 A1 A2 A3 A4]
    · isplitl [H0]; · iexact H0
      isplitl [A1]; · iexact A1
      isplitl [A2]; · iexact A2
      isplitl [A3]; · iexact A3
      iexact A4
    · unfold Pipeline.Dat.owesAt Pipeline.owesWithin
      icases HO with ⟨%W, -, HO⟩; iexists W; iexact HO

/-- @main as the list of the five. -/
abbrev segs : List (Pipeline.Seg (pcfgs (F := F)) adm (dats m) () defs₀ 𝒱₀ L lv) :=
  [.host (seg0 m), .host (seg1 m), .host (seg2 m), .region (reg0 m), .host (seg3 m)]

/-- What the run ends holding that the claims read: the three buffers of the last stretch, and what rode beside it. -/
abbrev Tₙ (c : Dev nD) : sProp 𝕄 := iprop(StableHlo.held (c : Thread nD τ) S3 (Vf m c) ∗ Keep m c)

/-- The physical post: the final result at the last stretch's output, the five argument arrays at what the run left
    under them. -/
def QC : PUnit × MemSt nD τ sig (Elt F) → Prop := fun r =>
  ∀ c : Dev nD, r.2.mem ((c : Thread nD τ).loc main_v7) = Vf m c (Proc.devRef .tc main_v7)
    ∧ r.2.mem ((c : Thread nD τ).loc main_arg0) = (dats m 0 c).arrAt 0 cfg0.N
    ∧ r.2.mem ((c : Thread nD τ).loc main_arg1) = V m c main_arg1
    ∧ r.2.mem ((c : Thread nD τ).loc main_arg2) = V m c main_arg2
    ∧ r.2.mem ((c : Thread nD τ).loc main_arg3) = V m c main_arg3
    ∧ r.2.mem ((c : Thread nD τ).loc main_arg4) = V m c main_arg4

set_option backward.isDefEq.respectTransparency.types false in
/-- At the compiled mesh, for any float values, from any memory with zero counters: every weakly fair execution of
    @main on the TensorCore terminates, nothing faulting, and every final state is as `QC` says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by
      rw [show main (F := F) c = Pipeline.Seg.run (segs m) from (main_chain c).trans (Pipeline.Seg.run_eq_chain (segs m)).symm])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Va m c) ∗ R c)) (Tₙ := Tₙ m)
    (hch := ⟨fun _ => .rfl, fun _ => .rfl, fun _ => .rfl, fun _ => .rfl, fun _ => .rfl, fun c => by
      show iprop(StableHlo.held (c : Thread nD τ) S3 (StableHlo.after hostOps1 (Ve m c)) ∗ (Keep m c ∗ R c))
        ⊢ iprop(Tₙ m c ∗ ∃ W, owes (c : Thread nD τ) (0 : CellTallies nD τ sig Unit) W)
      iintro ⟨Hh, Hk, HR⟩
      isplitr [HR]
      · isplitl [Hh]; · iexact Hh
        iexact Hk
      iexact HR⟩)
    (hinit := by
      refine Pipeline.initEach L lv fun c => ?_
      rw [show unscopedBufs c (fun b => m ((c : Thread nD τ).loc b)) = StableHlo.held (c : Thread nD τ) (Pipeline.ucRefs τ sig) (Va m c) from
        Pipeline.unscopedBufs_held c (Va m c)]
      iintro ⟨⟨Hh, -, HO, -, -, -⟩, -⟩
      imodintro
      isplitl [Hh]; · iexact Hh
      iexists ∅; iexact HO)
    (QY := fun c s => s.mem ((c : Thread nD τ).loc main_v7) = Vf m c (Proc.devRef .tc main_v7)
      ∧ s.mem ((c : Thread nD τ).loc main_arg0) = (dats m 0 c).arrAt 0 cfg0.N
      ∧ s.mem ((c : Thread nD τ).loc main_arg1) = V m c main_arg1
      ∧ s.mem ((c : Thread nD τ).loc main_arg2) = V m c main_arg2
      ∧ s.mem ((c : Thread nD τ).loc main_arg3) = V m c main_arg3
      ∧ s.mem ((c : Thread nD τ).loc main_arg4) = V m c main_arg4)
    (hfin := fun c s' => by
      dsimp only [Tₙ, Keep]; rw [held_S3]
      iintro ⟨⟨⟨-, -, H7⟩, H0, A1, A2, A3, A4⟩, HSI⟩
      icombine HSI H7 gives %h7
      icombine HSI H0 gives %h0
      icombine HSI A1 gives %h1
      icombine HSI A2 gives %h2
      icombine HSI A3 gives %h3
      icombine HSI A4 gives %h4
      imodintro
      isplitr
      · ipureintro
        exact ⟨Buf.eq_of_forall_mem_univ h7, Buf.eq_of_forall_mem_univ h0, Buf.eq_of_forall_mem_univ h1,
          Buf.eq_of_forall_mem_univ h2, Buf.eq_of_forall_mem_univ h3, Buf.eq_of_forall_mem_univ h4⟩
      iexact HSI)
    (hQ := fun _ h => h)

end Cert.KernelIdeal.Hand

end
-- ==== Proof.KI.Frame.lean ====
/-
  The frame: the program runs to the end, nothing faults, and the five argument arrays end as they were launched.

  No host line writes an argument array (each writes only its own result buffer), so the region finds every argument
  as launched; the kernel only reads its input windows, so the input array under its window ends as the region found
  it; and the last stretch touches neither.
-/
import proofs.«138238_g67224828117284_cont_sun_c4_631_35_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The first stretch writes the converted first-layer weights, the first shift as a row, and an integer zero; -/
theorem nw0 (b : Ref sig .tc) (hb : b ≠ main_v0 ∧ b ≠ main_v1 ∧ b ≠ main_c) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, StableHlo.nullary_writes, Finset.mem_singleton] <;>
    exact StableHlo.devRef_ne_of_ne ‹_›

/-- the second the padding value and the padded second-layer weights; -/
theorem nw1 (b : Ref sig .tc) (hb : b ≠ main_call0_v0 ∧ b ≠ main_v2) :
    ∀ op ∈ (hostOps0_1 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.binary_writes, Finset.mem_singleton] <;>
    exact StableHlo.devRef_ne_of_ne ‹_›

/-- the third the converted padded weights and the second shift as a column. -/
theorem nw2 (b : Ref sig .tc) (hb : b ≠ main_v3 ∧ b ≠ main_v4) :
    ∀ op ∈ (hostOps0_2 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- A buffer none of the three stretches writes reaches the region as launched. -/
theorem V_of_not_written (c : Dev nD) (b : Ref sig .tc)
    (hb : b ≠ main_v0 ∧ b ≠ main_v1 ∧ b ≠ main_c ∧ b ≠ main_call0_v0 ∧ b ≠ main_v2 ∧ b ≠ main_v3 ∧ b ≠ main_v4) :
    V m c b = m ((c : Thread nD τ).loc b) := by
  obtain ⟨h0, h1, h2, h3, h4, h5, h6⟩ := hb
  show StableHlo.after hostOps0_2 (StableHlo.after hostOps0_1 (StableHlo.after hostOps0 (Va m c))) (Proc.devRef .tc b) = _
  rw [StableHlo.after_of_forall_not_mem (b := Proc.devRef .tc b) _ _ (nw2 b ⟨h5, h6⟩),
    StableHlo.after_of_forall_not_mem (b := Proc.devRef .tc b) _ _ (nw1 b ⟨h3, h4⟩),
    StableHlo.after_of_forall_not_mem (b := Proc.devRef .tc b) _ _ (nw0 b ⟨h0, h1, h2⟩)]

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)

/-- The input array under its first window ends as launched: an input window's array is never written. -/
theorem arr0_final (c : Dev nD) : (dats m 0 c).arrAt 0 cfg0.N = m ((c : Thread nD τ).loc main_arg0) :=
  ((dats m 0 c).arrAt_in 0 rfl _).trans ((A_eq m c 0).trans (V_main_arg0 m c))

/-- The run with the post the claims read: the final result at the last stretch's output of the kernel's result
    array, the five arguments as launched. -/
theorem run_args : θ_run defs (onTc (τ := τ) (main (F := F))) ⟨m, fun _ => 0, ρ⟩ (fun r => ∀ c : Dev nD,
      r.2.mem ((c.tc : Thread nD τ).loc main_v7) = Vf m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1, (h c).2.1.trans (arr0_final m c), (h c).2.2.1.trans (V_main_arg1 m c),
    (h c).2.2.2.1.trans (V_main_arg2 m c), (h c).2.2.2.2.1.trans (V_main_arg3 m c), (h c).2.2.2.2.2.trans (V_main_arg4 m c)⟩) (run_main m ρ)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_args m ρ)

end Cert.KernelIdeal.Hand

end
-- ==== Proof.PayloadAt.lean ====
/-
  The arithmetic of one grid point, read entry by entry on the extended reals.

  At a grid point the body holds two blocks of 10000 rows of the input. For each block it forms the hidden layer
      h(r, k) = max (∑ⱼ x[r, j] · W1[j, k] + b1[0, k]) 0
  and then the logits, stored TRANSPOSED (class first, row second):
      out[0, c, r] = ∑ₖ W2p[k, c] · h(r, k) + b2[c, 0],          c < 2,
  where W2p is the second weight matrix padded to eight columns, of which only the first two are kept.
  The second product is taken with the weight matrix on the left, contracted along its rows, and the
  activations on the right, contracted along their columns; its factors therefore appear in the order
  W2p[k, c] · h(r, k). On the extended reals a change of float format is the identity and the zero word is the
  number 0, so each entry is exactly the displayed expression: no rounding, no finiteness assumption.

  `matmul1_at`, `matmul2_at`: the two products at an index, as sums over the one contracted axis.
  `pay3_at`: the hidden layer of a block.  `pay1_at`: a block's logits from its hidden layer.
  `pay2_eq`, `pay2_at`: the first block's logits are the same formula applied to the first block's hidden layer.
-/
import proofs.«138238_g67224828117284_cont_sun_c4_631_35_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx
open scoped BigOperators

/-! ## The first layer's product read at an index -/

theorem lhs1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The first layer's product: row `r` of the left factor against column `k` of the right one. -/
theorem matmul1_at (x : FVec Ideal S10000x128 .bf16) (w : FVec Ideal S128x128 .bf16) (r : Fin 10000) (k : Fin 128) :
    matmul (F := Ideal) dot_S10000x128_S128x128_S10000x128_1_0_0_1_n_n none x w
        (constant (F := Ideal) S10000x128 .f32 0x00000000#32) (ix2 r k)
      = ∑ j : Fin 128, x (ix2 r j) * w (ix2 j k) := by
  refine (Ideal.matmul_constant_zero_apply dot_S10000x128_S128x128_S10000x128_1_0_0_1_n_n none x w (ix2 r k)).trans ?_
  rw [← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 r k)
      ((contrEquiv1 dot_S10000x128_S128x128_S10000x128_1_0_0_1_n_n 128 rfl rfl).symm j) = ix2 r j :=
    funext fun a => Fin.ext (by
      match a with
      | ⟨0, _⟩ => exact lhs1_0 _ _
      | ⟨1, _⟩ => exact (lhs1_1 _ _).trans hj)
  have er : dot_S10000x128_S128x128_S10000x128_1_0_0_1_n_n.rhsIdx (ix2 r k)
      ((contrEquiv1 dot_S10000x128_S128x128_S10000x128_1_0_0_1_n_n 128 rfl rfl).symm j) = ix2 j k :=
    funext fun a => Fin.ext (by
      match a with
      | ⟨0, _⟩ => exact (rhs1_0 _ _).trans hj
      | ⟨1, _⟩ => exact rhs1_1 _ _)
  rw [el, er]

/-- The hidden layer of the second row block, entry by entry: the positive part of row `r`'s inner product with
    column `k` of the first weight matrix, shifted by the bias's entry `k`. -/
theorem pay3_at (x1 : Vec Ideal S10000x128 .f32) (w1 : Vec Ideal S128x128 .bf16) (b1 : Vec Ideal S1x128 .f32)
    (r : Fin 10000) (k : Fin 128) :
    k0_pay3 (F := Ideal) x1 w1 b1 (ix2 r k)
      = max ((∑ j : Fin 128, x1 (ix2 r j) * w1 (ix2 j k)) + b1 (ix2 (0 : Fin 1) k)) 0 := by
  unfold k0_pay3
  show max (matmul (F := Ideal) dot_S10000x128_S128x128_S10000x128_1_0_0_1_n_n none
        (truncf .bf16 x1 bitsLt_bf16_f32) (shapeCast S128x128 w1 shapeCasts_S128x128_S128x128)
        (constant (F := Ideal) S10000x128 .f32 0x00000000#32) (ix2 r k)
      + broadcastTo S10000x128 (shapeCast S1x128 b1 shapeCasts_S1x128_S1x128) broadcasts_S1x128_S10000x128 (ix2 r k))
      (Ideal.ofBits .f32 0x00000000#32) = _
  rw [matmul1_at, shapeCast_self, shapeCast_self, broadcastTo_1b_ab_apply, Ideal.ofBits_zero_f32]
  rfl

/-! ## The second layer's product read at an index -/

theorem lhs2_0 (i : S8x10000.Idx) (q : dot_S128x8_S10000x128_S8x10000_0_1_1_0_n_n.contr.Idx) :
    (dot_S128x8_S10000x128_S8x10000_0_1_1_0_n_n.lhsIdx i q 0).val = (q ⟨0, by decide⟩).val :=
  dot_S128x8_S10000x128_S8x10000_0_1_1_0_n_n.lhsIdx_val_of_single rfl i q
theorem lhs2_1 (i : S8x10000.Idx) (q : dot_S128x8_S10000x128_S8x10000_0_1_1_0_n_n.contr.Idx) :
    (dot_S128x8_S10000x128_S8x10000_0_1_1_0_n_n.lhsIdx i q 1).val = (i 0).val := by
  unfold DotDims.lhsIdx
  rw [dif_neg (show ¬(1 : Fin S128x8.rank) ∈ dot_S128x8_S10000x128_S8x10000_0_1_1_0_n_n.lhsBatch by decide),
    dif_pos (show (1 : Fin S128x8.rank) ∈ dot_S128x8_S10000x128_S8x10000_0_1_1_0_n_n.lhsNonContracting by decide)]
  rfl
theorem rhs2_0 (i : S8x10000.Idx) (q : dot_S128x8_S10000x128_S8x10000_0_1_1_0_n_n.contr.Idx) :
    (dot_S128x8_S10000x128_S8x10000_0_1_1_0_n_n.rhsIdx i q 0).val = (i 1).val := by
  unfold DotDims.rhsIdx
  rw [dif_neg (show ¬(0 : Fin S10000x128.rank) ∈ dot_S128x8_S10000x128_S8x10000_0_1_1_0_n_n.rhsBatch by decide),
    dif_pos (show (0 : Fin S10000x128.rank) ∈ dot_S128x8_S10000x128_S8x10000_0_1_1_0_n_n.rhsNonContracting by decide)]
  rfl
theorem rhs2_1 (i : S8x10000.Idx) (q : dot_S128x8_S10000x128_S8x10000_0_1_1_0_n_n.contr.Idx) :
    (dot_S128x8_S10000x128_S8x10000_0_1_1_0_n_n.rhsIdx i q 1).val = (q ⟨0, by decide⟩).val :=
  dot_S128x8_S10000x128_S8x10000_0_1_1_0_n_n.rhsIdx_val_of_single rfl i q

/-- The second layer's product, transposed: column `c` of the left factor against row `r` of the right one
    (the left factor is contracted along its rows, the right one along its columns). -/
theorem matmul2_at (w : FVec Ideal S128x8 .bf16) (h : FVec Ideal S10000x128 .bf16) (c : Fin 8) (r : Fin 10000) :
    matmul (F := Ideal) dot_S128x8_S10000x128_S8x10000_0_1_1_0_n_n none w h
        (constant (F := Ideal) S8x10000 .f32 0x00000000#32) (ix2 c r)
      = ∑ k : Fin 128, w (ix2 k c) * h (ix2 r k) := by
  refine (Ideal.matmul_constant_zero_apply dot_S128x8_S10000x128_S8x10000_0_1_1_0_n_n none w h (ix2 c r)).trans ?_
  rw [← Equiv.sum_comp (contrEquiv1 dot_S128x8_S10000x128_S8x10000_0_1_1_0_n_n 128 rfl rfl).symm]
  refine Finset.sum_congr rfl fun k _ => ?_
  have hk := contrEquiv1_symm_val dot_S128x8_S10000x128_S8x10000_0_1_1_0_n_n 128 rfl rfl k
  have el : dot_S128x8_S10000x128_S8x10000_0_1_1_0_n_n.lhsIdx (ix2 c r)
      ((contrEquiv1 dot_S128x8_S10000x128_S8x10000_0_1_1_0_n_n 128 rfl rfl).symm k) = ix2 k c :=
    funext fun a => Fin.ext (by
      match a with
      | ⟨0, _⟩ => exact (lhs2_0 _ _).trans hk
      | ⟨1, _⟩ => exact lhs2_1 _ _)
  have er : dot_S128x8_S10000x128_S8x10000_0_1_1_0_n_n.rhsIdx (ix2 c r)
      ((contrEquiv1 dot_S128x8_S10000x128_S8x10000_0_1_1_0_n_n 128 rfl rfl).symm k) = ix2 r k :=
    funext fun a => Fin.ext (by
      match a with
      | ⟨0, _⟩ => exact rhs2_0 _ _
      | ⟨1, _⟩ => exact (rhs2_1 _ _).trans hk)
  rw [el, er]

/-- One column broadcast over many: an `[a, 1]` array broadcast to `[a, b]` reads, at `(p, c)`, the operand's one
    column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logits of a row block from its hidden layer, entry by entry and transposed: at class `c` and row `r`, the
    inner product of column `c` of the (padded) second weight matrix with row `r`'s activations, shifted by the
    bias's entry `c`. -/
theorem pay1_at (h : FVec Ideal S10000x128 .f32) (w2 : Vec Ideal S128x8 .bf16) (b2 : Vec Ideal S2x1 .f32)
    (c : Fin 2) (r : Fin 10000) :
    k0_pay1 (F := Ideal) h w2 b2 (ix3 (0 : Fin 1) c r)
      = (∑ k : Fin 128, w2 (ix2 k (⟨c.val, by omega⟩ : Fin 8)) * h (ix2 r k)) + b2 (ix2 c (0 : Fin 1)) := by
  unfold k0_pay1
  refine (shapeCast_ab_1ab_apply _ shapeCasts_S2x10000_S1x2x10000 (0 : Fin 1) c r).trans ?_
  show extractStridedSlice S2x10000 ![0, 0]
        (matmul (F := Ideal) dot_S128x8_S10000x128_S8x10000_0_1_1_0_n_n none
          (shapeCast S128x8 w2 shapeCasts_S128x8_S128x8) (truncf .bf16 h bitsLt_bf16_f32)
          (constant (F := Ideal) S8x10000 .f32 0x00000000#32))
        slices_S8x10000_o0_0_S2x10000 (ix2 c r)
      + broadcastTo S2x10000 (shapeCast S2x1 b2 shapeCasts_S2x1_S2x1) broadcasts_S2x1_S2x10000 (ix2 c r) = _
  rw [slice2_axis0_apply 0 _ slices_S8x10000_o0_0_S2x10000 c r (⟨c.val, by omega⟩ : Fin 8) (Nat.zero_add _).symm,
    matmul2_at, shapeCast_self, shapeCast_self, broadcastTo_a1_ab_apply]
  rfl

/-- The first row block's logits are the second block's formula applied to the first block's hidden layer: the two
    are the same term. -/
theorem pay2_eq {F : FTy → Type} [FloatOps F] (x0 : Vec F S10000x128 .f32) (w1 : Vec F S128x128 .bf16) (b1 : Vec F S1x128 .f32)
    (w2 : Vec F S128x8 .bf16) (b2 : Vec F S2x1 .f32) :
    k0_pay2 x0 w1 b1 w2 b2 = k0_pay1 (k0_pay3 x0 w1 b1) w2 b2 := rfl

/-- The first row block's logits, entry by entry and transposed. -/
theorem pay2_at (x0 : Vec Ideal S10000x128 .f32) (w1 : Vec Ideal S128x128 .bf16) (b1 : Vec Ideal S1x128 .f32)
    (w2 : Vec Ideal S128x8 .bf16) (b2 : Vec Ideal S2x1 .f32) (c : Fin 2) (r : Fin 10000) :
    k0_pay2 (F := Ideal) x0 w1 b1 w2 b2 (ix3 (0 : Fin 1) c r)
      = (∑ k : Fin 128, w2 (ix2 k (⟨c.val, by omega⟩ : Fin 8))
            * max ((∑ j : Fin 128, x0 (ix2 r j) * w1 (ix2 j k)) + b1 (ix2 (0 : Fin 1) k)) 0)
          + b2 (ix2 c (0 : Fin 1)) := by
  rw [pay2_eq, pay1_at]
  refine congrArg (· + b2 (ix2 c (0 : Fin 1))) (Finset.sum_congr rfl fun k _ => ?_)
  rw [pay3_at]

end Cert.KernelIdeal.PayloadAt

end
-- ==== Proof.Spec.lean ====
/-
  The function both programs compute, index by index, on the extended reals: a perceptron with one hidden layer.

  For a row `r` of the input `x` and a hidden unit `k` the activation is the positive part of an affine form,
      h(r, k) = max (∑ⱼ x[r, j] · W1[j, k] + b1[k]) 0,
  and for a class `c` the result is a second affine form of the activations,
      out[r, c] = ∑ₖ h(r, k) · W2[k, c] + b2[c].
  Sums and products are those of the extended reals; nothing here needs the entries to be finite.
-/
import Idealize.ShloMosaic.PureOps.Ideal
import Idealize.ShloMosaic.Lib.ValueIdx

noncomputable section

namespace Cert.Mlp

open Idealize.ShloMosaic Idealize.ShloMosaic.ValueIdx
open scoped BigOperators

/-- The hidden layer: unit `k` of row `r` is the positive part of the row's inner product with column `k` of
    `W1`, shifted by `b1[k]`. -/
def hidden (x : (⟨2, ![100000, 128]⟩ : Shape).Idx → EReal) (W1 : (⟨2, ![128, 128]⟩ : Shape).Idx → EReal)
    (b1 : (⟨1, ![128]⟩ : Shape).Idx → EReal) (r : Fin 100000) (k : Fin 128) : EReal :=
  max ((∑ j : Fin 128, x (ix2 r j) * W1 (ix2 j k)) + b1 (ix1 k)) 0

/-- The result: entry `(r, c)` is the inner product of row `r`'s activations with column `c` of `W2`, shifted
    by `b2[c]`. -/
def logits (x : (⟨2, ![100000, 128]⟩ : Shape).Idx → EReal) (W1 : (⟨2, ![128, 128]⟩ : Shape).Idx → EReal)
    (b1 : (⟨1, ![128]⟩ : Shape).Idx → EReal) (W2 : (⟨2, ![128, 2]⟩ : Shape).Idx → EReal)
    (b2 : (⟨1, ![2]⟩ : Shape).Idx → EReal) : (⟨2, ![100000, 2]⟩ : Shape).Idx → EReal :=
  fun i => (∑ k : Fin 128, hidden x W1 b1 (i 0) k * W2 (ix2 k (i 1))) + b2 (ix1 (i 1))

end Cert.Mlp

end
-- ==== Proof.PayloadSpec.lean ====
/-
  The arithmetic of one grid point IS the perceptron of the specification, entry by entry.

  Suppose a block's row `r` is row `R` of the whole input, the block's weights and biases have the entries of the
  whole arrays (the padded second weight matrix in its first two columns), and nothing else. Then the block's
  hidden layer at `(r, k)` is the specification's activation `h(R, k)`, and the block's stored logit at class `c`,
  row `r` is the specification's result at `(R, c)`. The one law used is the commutativity of multiplication on the
  extended reals: the body multiplies weight by activation, the specification activation by weight.
-/
import proofs.«138238_g67224828117284_cont_sun_c4_631_35_alg».proof.Proof.PayloadAt
import proofs.«138238_g67224828117284_cont_sun_c4_631_35_alg».proof.Proof.Spec

noncomputable section

namespace Cert.KernelIdeal.PayloadSpec

open Cert.KernelIdeal Cert.KernelIdeal.Gen Cert.KernelIdeal.PayloadAt Idealize.ShloMosaic Idealize.ShloMosaic.ValueIdx
open scoped BigOperators

/-- A block's hidden layer is the specification's: if row `r` of the block is row `R` of the input and the
    block's first-layer weights and bias are the whole arrays', entry `(r, k)` is the activation `h(R, k)`. -/
theorem pay3_eq_hidden (x : S100000x128.Idx → EReal) (W1 : S128x128.Idx → EReal) (B1 : S128.Idx → EReal)
    (x1 : Vec Ideal S10000x128 .f32) (w1 : Vec Ideal S128x128 .bf16) (b1 : Vec Ideal S1x128 .f32)
    (R : Fin 100000) (r : Fin 10000) (k : Fin 128)
    (hx : ∀ j : Fin 128, x1 (ix2 r j) = x (ix2 R j))
    (hw1 : ∀ j : Fin 128, w1 (ix2 j k) = W1 (ix2 j k))
    (hb1 : b1 (ix2 (0 : Fin 1) k) = B1 (ix1 k)) :
    k0_pay3 (F := Ideal) x1 w1 b1 (ix2 r k) = Cert.Mlp.hidden x W1 B1 R k := by
  rw [pay3_at, hb1]
  unfold Cert.Mlp.hidden
  simp only [hx, hw1]

/-- A block's logits from a hidden layer that is the specification's: entry `(c, r)` of the stored (transposed)
    block is the specification's result at `(R, c)`. -/
theorem pay1_eq_logits (x : S100000x128.Idx → EReal) (W1 : S128x128.Idx → EReal) (B1 : S128.Idx → EReal)
    (W2 : S128x2.Idx → EReal) (B2 : S2.Idx → EReal)
    (h : FVec Ideal S10000x128 .f32) (w2 : Vec Ideal S128x8 .bf16) (b2 : Vec Ideal S2x1 .f32)
    (R : Fin 100000) (r : Fin 10000) (c : Fin 2)
    (hh : ∀ k : Fin 128, h (ix2 r k) = Cert.Mlp.hidden x W1 B1 R k)
    (hw2 : ∀ k : Fin 128, w2 (ix2 k (⟨c.val, by omega⟩ : Fin 8)) = W2 (ix2 k c))
    (hb2 : b2 (ix2 c (0 : Fin 1)) = B2 (ix1 c)) :
    k0_pay1 (F := Ideal) h w2 b2 (ix3 (0 : Fin 1) c r) = Cert.Mlp.logits x W1 B1 W2 B2 (ix2 R c) := by
  rw [pay1_at, hb2]
  show _ = (∑ k : Fin 128, Cert.Mlp.hidden x W1 B1 R k * W2 (ix2 k c)) + B2 (ix1 c)
  refine congrArg (· + B2 (ix1 c)) (Finset.sum_congr rfl fun k _ => ?_)
  rw [hw2 k, hh k, mul_comm]

/-- The first block's logits likewise, from the block's own input rows. -/
theorem pay2_eq_logits (x : S100000x128.Idx → EReal) (W1 : S128x128.Idx → EReal) (B1 : S128.Idx → EReal)
    (W2 : S128x2.Idx → EReal) (B2 : S2.Idx → EReal)
    (x0 : Vec Ideal S10000x128 .f32) (w1 : Vec Ideal S128x128 .bf16) (b1 : Vec Ideal S1x128 .f32)
    (w2 : Vec Ideal S128x8 .bf16) (b2 : Vec Ideal S2x1 .f32)
    (R : Fin 100000) (r : Fin 10000) (c : Fin 2)
    (hx : ∀ j : Fin 128, x0 (ix2 r j) = x (ix2 R j))
    (hw1 : ∀ j k : Fin 128, w1 (ix2 j k) = W1 (ix2 j k))
    (hb1 : ∀ k : Fin 128, b1 (ix2 (0 : Fin 1) k) = B1 (ix1 k))
    (hw2 : ∀ k : Fin 128, w2 (ix2 k (⟨c.val, by omega⟩ : Fin 8)) = W2 (ix2 k c))
    (hb2 : b2 (ix2 c (0 : Fin 1)) = B2 (ix1 c)) :
    k0_pay2 (F := Ideal) x0 w1 b1 w2 b2 (ix3 (0 : Fin 1) c r) = Cert.Mlp.logits x W1 B1 W2 B2 (ix2 R c) := by
  rw [pay2_eq]
  exact pay1_eq_logits x W1 B1 W2 B2 _ w2 b2 R r c
    (fun k => pay3_eq_hidden x W1 B1 x0 w1 b1 R r k hx (fun j => hw1 j k) (hb1 k)) hw2 hb2

end Cert.KernelIdeal.PayloadSpec

end
-- ==== Proof.KI.BlockAt.lean ====
/-
  The output block, entry by entry.

  The block the body leaves is two slabs laid side by side. Slab `s`, class `c`, row `r` holds the result of row `r` of
  the `s`-th row block for class `c`. When that row is row `R` of the whole input and the parameter buffers hold the
  parameters, that entry is the specification's result at `(R, c)`.
-/
import proofs.«138238_g67224828117284_cont_sun_c4_631_35_alg».proof.Proof.KI.Body
import proofs.«138238_g67224828117284_cont_sun_c4_631_35_alg».proof.Proof.PayloadAt
import proofs.«138238_g67224828117284_cont_sun_c4_631_35_alg».proof.Proof.PayloadSpec

set_option maxRecDepth 16384

noncomputable section

namespace Cert.KernelIdeal.HandValue

open Cert.KernelIdeal Cert.KernelIdeal.Gen Cert.KernelIdeal.Hand Cert.KernelIdeal.PayloadAt Cert.KernelIdeal.PayloadSpec
open Idealize.ShloMosaic Idealize.ShloMosaic.ValueIdx
open scoped BigOperators

theorem hz2 : (![0, 0] : Fin 2 → Nat) = fun _ => 0 := funext fun a => by fin_cases a <;> rfl

/-- Slab 1's entry `(c, r)` sits at `(1, c, r)` of the block, -/
theorem emb_rO1 (cls : Fin 2) (r : Fin 10000) : rO1.emb (ix3 (0 : Fin 1) cls r) = (ix3 (1 : Fin 2) cls r : S2x2x10000.Idx) := by
  funext a; apply Fin.ext
  match a with
  | ⟨0, _⟩ => rfl
  | ⟨1, _⟩ => show 0 + 1 * cls.val = cls.val; omega
  | ⟨2, _⟩ => show 0 + 1 * r.val = r.val; omega

/-- slab 0's at `(0, c, r)`, -/
theorem emb_rO0 (cls : Fin 2) (r : Fin 10000) : rO0.emb (ix3 (0 : Fin 1) cls r) = (ix3 (0 : Fin 2) cls r : S2x2x10000.Idx) := by
  funext a; apply Fin.ext
  match a with
  | ⟨0, _⟩ => rfl
  | ⟨1, _⟩ => show 0 + 1 * cls.val = cls.val; omega
  | ⟨2, _⟩ => show 0 + 1 * r.val = r.val; omega

/-- and an index of slab 0 is not in slab 1. -/
theorem not_mem_rO1 (cls : Fin 2) (r : Fin 10000) : (ix3 (0 : Fin 2) cls r : S2x2x10000.Idx) ∉ rO1.set := by
  rw [Rect.mem_set_unit]
  intro h
  have h0 : (1 : Nat) ≤ 0 := (h 0).1
  omega

/-- Reading two slabs laid over the block: at slab 0 the earlier store's payload, -/
theorem canon2_at0 (p1 p0 : Vec Ideal S1x2x10000 .f32) (cls : Fin 2) (r : Fin 10000) :
    View.canon [(⟨rO1, p1⟩ : View.Piece (Elt Ideal) S2x2x10000 .f32), ⟨rO0, p0⟩] (ix3 (0 : Fin 2) cls r) = p0 (ix3 (0 : Fin 1) cls r) := by
  rw [View.canon_cons_of_not_mem (⟨rO1, p1⟩ : View.Piece (Elt Ideal) S2x2x10000 .f32) [⟨rO0, p0⟩] (not_mem_rO1 cls r), ← emb_rO0 cls r]
  exact View.canon_cons_emb rO0 p0 [] _

/-- at slab 1 the later store's. -/
theorem canon2_at1 (p1 p0 : Vec Ideal S1x2x10000 .f32) (cls : Fin 2) (r : Fin 10000) :
    View.canon [(⟨rO1, p1⟩ : View.Piece (Elt Ideal) S2x2x10000 .f32), ⟨rO0, p0⟩] (ix3 (1 : Fin 2) cls r) = p1 (ix3 (0 : Fin 1) cls r) := by
  rw [← emb_rO1 cls r]
  exact View.canon_cons_emb rO1 p1 [⟨rO0, p0⟩] _

/-- Slab 0 holds the first row block's results: if row `r` of the first block is row `R` of the input and the
    parameter buffers hold the parameters (the padded weights in their first two columns), entry `(0, c, r)` of the
    block is the specification's result at `(R, c)`. -/
theorem outBlock_at0 (x : S100000x128.Idx → EReal) (W1 : S128x128.Idx → EReal) (B1 : S128.Idx → EReal)
    (W2 : S128x2.Idx → EReal) (B2 : S2.Idx → EReal)
    (x0 x1 : Vec Ideal S10000x128 .f32) (w1 : Vec Ideal S128x128 .bf16) (b1 : Vec Ideal S1x128 .f32)
    (w2 : Vec Ideal S128x8 .bf16) (b2 : Vec Ideal S2x1 .f32) (R : Fin 100000) (cls : Fin 2) (r : Fin 10000)
    (hx : ∀ j : Fin 128, x0 (ix2 r j) = x (ix2 R j))
    (hw1 : ∀ j k : Fin 128, w1 (ix2 j k) = W1 (ix2 j k))
    (hb1 : ∀ k : Fin 128, b1 (ix2 (0 : Fin 1) k) = B1 (ix1 k))
    (hw2 : ∀ k : Fin 128, w2 (ix2 k (⟨cls.val, by omega⟩ : Fin 8)) = W2 (ix2 k cls))
    (hb2 : b2 (ix2 cls (0 : Fin 1)) = B2 (ix1 cls)) :
    outBlock (F := Ideal) x0 x1 w1 b1 w2 b2 (ix3 (0 : Fin 2) cls r) = Cert.Mlp.logits x W1 B1 W2 B2 (ix2 R cls) := by
  unfold outBlock
  refine (canon2_at0 _ _ cls r).trans ?_
  simp only [View.ld_unit_zero (S := S10000x128) hz2, View.ld_unit_zero (S := S128x128) hz2, View.ld_unit_zero (S := S1x128) hz2,
    View.ld_unit_zero (S := S128x8) hz2, View.ld_unit_zero (S := S2x1) hz2]
  exact pay2_eq_logits x W1 B1 W2 B2 x0 w1 b1 w2 b2 R r cls hx hw1 hb1 hw2 hb2

/-- Slab 1 holds the second row block's, likewise. -/
theorem outBlock_at1 (x : S100000x128.Idx → EReal) (W1 : S128x128.Idx → EReal) (B1 : S128.Idx → EReal)
    (W2 : S128x2.Idx → EReal) (B2 : S2.Idx → EReal)
    (x0 x1 : Vec Ideal S10000x128 .f32) (w1 : Vec Ideal S128x128 .bf16) (b1 : Vec Ideal S1x128 .f32)
    (w2 : Vec Ideal S128x8 .bf16) (b2 : Vec Ideal S2x1 .f32) (R : Fin 100000) (cls : Fin 2) (r : Fin 10000)
    (hx : ∀ j : Fin 128, x1 (ix2 r j) = x (ix2 R j))
    (hw1 : ∀ j k : Fin 128, w1 (ix2 j k) = W1 (ix2 j k))
    (hb1 : ∀ k : Fin 128, b1 (ix2 (0 : Fin 1) k) = B1 (ix1 k))
    (hw2 : ∀ k : Fin 128, w2 (ix2 k (⟨cls.val, by omega⟩ : Fin 8)) = W2 (ix2 k cls))
    (hb2 : b2 (ix2 cls (0 : Fin 1)) = B2 (ix1 cls)) :
    outBlock (F := Ideal) x0 x1 w1 b1 w2 b2 (ix3 (1 : Fin 2) cls r) = Cert.Mlp.logits x W1 B1 W2 B2 (ix2 R cls) := by
  unfold outBlock
  refine (canon2_at1 _ _ cls r).trans ?_
  simp only [View.ld_unit_zero (S := S10000x128) hz2, View.ld_unit_zero (S := S128x128) hz2, View.ld_unit_zero (S := S1x128) hz2,
    View.ld_unit_zero (S := S128x8) hz2, View.ld_unit_zero (S := S2x1) hz2]
  exact pay1_eq_logits x W1 B1 W2 B2 _ w2 b2 R r cls
    (fun k => pay3_eq_hidden x W1 B1 x1 w1 b1 R r k hx (fun j => hw1 j k) (hb1 k)) hw2 hb2

end Cert.KernelIdeal.HandValue

end
-- ==== Proof.KI.Blocks.lean ====
/-
  The windows' blocks at a grid point, and the cover of the result by the points' blocks.

  The grid has five points. At point `t` the two row-block windows hold rows `2t · 10000 …` and `(2t + 1) · 10000 …`
  of the input (two windows on one array); the four parameter windows hold their whole arrays; the result window's
  block is slabs `2t` and `2t + 1` of the result `[10, 2, 10000]`. A block's coordinate on an axis is always the
  block index times the block's extent plus the coordinate inside the block, so each statement below is one
  equation of naturals per axis. The five result blocks tile the result: slab `q` lies in the block of point `q / 2`.
-/
import proofs.«138238_g67224828117284_cont_sun_c4_631_35_alg».proof.Proof.KI.Data
import proofs.«138238_g67224828117284_cont_sun_c4_631_35_alg».proof.Proof.Gen.KernelIdeal.Points
import Idealize.ShloMosaic.Lib.Pipeline.Value
import Idealize.ShloMosaic.Lib.ValueIdx

noncomputable section

namespace Cert.KernelIdeal.HandBlocks

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F] (m : (ℓ : Loc nD τ sig) → Buf (Elt F) ℓ)

/-! ## Where each window's block sits at a grid point -/

/-- The index maps, decided over the five grid points: the two row-block windows are at block rows `2t` and
    `2t + 1` of the input, the four parameter windows at the origin of their arrays, the result window at block `t`. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t = ![0, 0] ∧ win0_3.index t = ![0, 0] ∧ win0_4.index t = ![0, 0] ∧ win0_5.index t = ![0, 0]
    ∧ win0_6.index t (0 : Fin 3) = t.val ∧ win0_6.index t (1 : Fin 3) = 0 ∧ win0_6.index t (2 : Fin 3) = 0 :=
  (by decide +kernel : ∀ t : Fin grid0.N, _)

/-! ## The input windows' blocks, read off the arrays as the region finds them -/

/-- The first row-block window at point `t` holds rows `2t · 10000 …` of the input: row `r` of the block is row
    `2t · 10000 + r` of the array. -/
theorem iblk0_at (c : Dev nD) (t : Fin cfg0.N) (r : Fin 10000) (j : Fin 128) :
    iblk m c 0 t (ix2 r j)
      = (V m c main_arg0 : S100000x128.Idx → Elt F .f32)
          (ix2 (⟨2 * t.val * 10000 + r.val, by have := t.isLt; have hN : cfg0.N = 5 := N_0; omega⟩ : Fin 100000) j) := by
  obtain ⟨e0, e1, -⟩ := idx_facts t
  show V m c main_arg0 (((cfg0.win 0).blk t).view.emb (ix2 r j)) = V m c main_arg0 _
  refine congrArg _ (funext fun a => Fin.ext ?_)
  match a with
  | ⟨0, _⟩ => show win0_0.index t (0 : Fin 2) * 10000 + 1 * r.val = 2 * t.val * 10000 + r.val; omega
  | ⟨1, _⟩ => show win0_0.index t (1 : Fin 2) * 128 + 1 * j.val = j.val; omega

/-- The second row-block window at point `t` holds the next 10000 rows: row `r` of the block is row
    `(2t + 1) · 10000 + r` of the array. -/
theorem iblk1_at (c : Dev nD) (t : Fin cfg0.N) (r : Fin 10000) (j : Fin 128) :
    iblk m c 1 t (ix2 r j)
      = (V m c main_arg0 : S100000x128.Idx → Elt F .f32)
          (ix2 (⟨(2 * t.val + 1) * 10000 + r.val, by have := t.isLt; have hN : cfg0.N = 5 := N_0; omega⟩ : Fin 100000) j) := by
  obtain ⟨-, -, e2, e3, -⟩ := idx_facts t
  show V m c main_arg0 (((cfg0.win 1).blk t).view.emb (ix2 r j)) = V m c main_arg0 _
  refine congrArg _ (funext fun a => Fin.ext ?_)
  match a with
  | ⟨0, _⟩ => show win0_1.index t (0 : Fin 2) * 10000 + 1 * r.val = (2 * t.val + 1) * 10000 + r.val; omega
  | ⟨1, _⟩ => show win0_1.index t (1 : Fin 2) * 128 + 1 * j.val = j.val; omega

/-- The first layer's weights are one block, the whole array, at every point. -/
theorem iblk2_eq (c : Dev nD) (t : Fin cfg0.N) : (iblk m c 2 t : S128x128.Idx → Elt F .bf16) = V m c main_v0 := by
  obtain ⟨-, -, -, -, e, -⟩ := idx_facts t
  have e0 : win0_2.index t (0 : Fin 2) = 0 := congrFun e 0
  have e1 : win0_2.index t (1 : Fin 2) = 0 := congrFun e 1
  funext y
  show V m c main_v0 (((cfg0.win 2).blk t).view.emb y) = V m c main_v0 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first layer's shift, as a row, is one block, the whole array, at every point. -/
theorem iblk3_eq (c : Dev nD) (t : Fin cfg0.N) : (iblk m c 3 t : S1x128.Idx → Elt F .f32) = V m c main_v1 := by
  obtain ⟨-, -, -, -, -, e, -⟩ := idx_facts t
  have e0 : win0_3.index t (0 : Fin 2) = 0 := congrFun e 0
  have e1 : win0_3.index t (1 : Fin 2) = 0 := congrFun e 1
  funext y
  show V m c main_v1 (((cfg0.win 3).blk t).view.emb y) = V m c main_v1 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second layer's padded weights are one block, the whole array, at every point. -/
theorem iblk4_eq (c : Dev nD) (t : Fin cfg0.N) : (iblk m c 4 t : S128x8.Idx → Elt F .bf16) = V m c main_v3 := by
  obtain ⟨-, -, -, -, -, -, e, -⟩ := idx_facts t
  have e0 : win0_4.index t (0 : Fin 2) = 0 := congrFun e 0
  have e1 : win0_4.index t (1 : Fin 2) = 0 := congrFun e 1
  funext y
  show V m c main_v3 (((cfg0.win 4).blk t).view.emb y) = V m c main_v3 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 8 + 1 * (y 1).val = (y 1).val; omega

/-- The second layer's shift, as a column, is one block, the whole array, at every point. -/
theorem iblk5_eq (c : Dev nD) (t : Fin cfg0.N) : (iblk m c 5 t : S2x1.Idx → Elt F .f32) = V m c main_v4 := by
  obtain ⟨-, -, -, -, -, -, -, e, -⟩ := idx_facts t
  have e0 : win0_5.index t (0 : Fin 2) = 0 := congrFun e 0
  have e1 : win0_5.index t (1 : Fin 2) = 0 := congrFun e 1
  funext y
  show V m c main_v4 (((cfg0.win 5).blk t).view.emb y) = V m c main_v4 y
  refine congrArg _ (funext fun a => Fin.ext ?_)
  match a with
  | ⟨0, _⟩ => show win0_5.index t (0 : Fin 2) * 2 + 1 * (y 0).val = (y 0).val; omega
  | ⟨1, _⟩ => show win0_5.index t (1 : Fin 2) * 1 + 1 * (y 1).val = (y 1).val; omega

/-! ## Where point `t`'s result block sits, and that the five blocks fill the result -/

/-- Point `t`'s result block is slabs `2t` and `2t + 1` of the result: its index `(s, cls, r)` sits at
    `(2t + s, cls, r)`. -/
theorem emb6 (t : Fin cfg0.N) (s : Fin 2) (cls : Fin 2) (r : Fin 10000) :
    ((cfg0.win 6).blk t).view.emb (ix3 s cls r)
      = (ix3 (⟨2 * t.val + s.val, by have := t.isLt; have hN : cfg0.N = 5 := N_0; omega⟩ : Fin 10) cls r : S10x2x10000.Idx) := by
  obtain ⟨-, -, -, -, -, -, -, -, e0, e1, e2⟩ := idx_facts t
  funext a
  apply Fin.ext
  match a with
  | ⟨0, _⟩ => show win0_6.index t (0 : Fin 3) * 2 + 1 * s.val = 2 * t.val + s.val; omega
  | ⟨1, _⟩ => show win0_6.index t (1 : Fin 3) * 2 + 1 * cls.val = cls.val; omega
  | ⟨2, _⟩ => show win0_6.index t (2 : Fin 3) * 10000 + 1 * r.val = r.val; omega

/-- An index of the result is in point `t`'s block iff each coordinate is in the block's range on its axis. -/
theorem mem_blk6 (t : Fin cfg0.N) (i : S10x2x10000.Idx) :
    i ∈ ((cfg0.win 6).blk t).view.set ↔ ∀ a : Fin 3, win0_6.index t a * S2x2x10000.size a ≤ (i a).val
      ∧ (i a).val < win0_6.index t a * S2x2x10000.size a + S2x2x10000.size a := by
  show i ∈ ((View.whole main_v5).slice (win0_6.rect t)).set ↔ _
  rw [View.set_slice_whole, Rect.mem_set_unit]
  exact Iff.rfl

/-- Every index of the result is in the block of a point that writes it back: slab `q` belongs to point `q / 2`. -/
theorem cover6 : ∀ i : S10x2x10000.Idx, ∃ t : Fin cfg0.N, (cfg0.win 6).flush t = true ∧ i ∈ ((cfg0.win 6).blk t).view.set := by
  intro i
  have hi0 : (i 0).val < 10 := (i 0).isLt
  have hi1 : (i 1).val < 2 := (i 1).isLt
  have hi2 : (i 2).val < 10000 := (i 2).isLt
  have hN : grid0.N = 5 := N_0
  have ht : (i 0).val / 2 < grid0.N := by rw [hN]; omega
  obtain ⟨-, -, -, -, -, -, -, -, e0, e1, e2⟩ := idx_facts ⟨(i 0).val / 2, ht⟩
  refine ⟨⟨(i 0).val / 2, ht⟩, flush0_6 _, ?_⟩
  rw [mem_blk6]
  intro a
  match a with
  | ⟨0, _⟩ =>
    show win0_6.index ⟨(i 0).val / 2, ht⟩ (0 : Fin 3) * 2 ≤ (i 0).val
      ∧ (i 0).val < win0_6.index ⟨(i 0).val / 2, ht⟩ (0 : Fin 3) * 2 + 2
    rw [e0]; show (i 0).val / 2 * 2 ≤ (i 0).val ∧ (i 0).val < (i 0).val / 2 * 2 + 2; omega
  | ⟨1, _⟩ =>
    show win0_6.index ⟨(i 0).val / 2, ht⟩ (1 : Fin 3) * 2 ≤ (i 1).val
      ∧ (i 1).val < win0_6.index ⟨(i 0).val / 2, ht⟩ (1 : Fin 3) * 2 + 2
    rw [e1]; omega
  | ⟨2, _⟩ =>
    show win0_6.index ⟨(i 0).val / 2, ht⟩ (2 : Fin 3) * 10000 ≤ (i 2).val
      ∧ (i 2).val < win0_6.index ⟨(i 0).val / 2, ht⟩ (2 : Fin 3) * 10000 + 10000
    rw [e2]; omega

end Cert.KernelIdeal.HandBlocks

end
-- ==== Proof.HostAt.lean ====
/-
  The operations around the region, read entry by entry.

  Before the region the weights are narrowed to a 16-bit format (the identity on the extended reals), the two
  biases are reshaped to a one-row and a one-column matrix (a reshape keeps the row-major position), and the second
  weight matrix gets six more columns (its first two columns keep the original entries). After the region the
  result [10, 2, 10000] has its last two axes swapped and its first two axes then merged, so that entry
  (10000·b + r, c) of the final [100000, 2] array is entry (b, c, r) of the region's result.
-/
import proofs.«138238_g67224828117284_cont_sun_c4_631_35_alg».proof.Proof.Gen.KernelIdeal
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.HostAt

open Cert.KernelIdeal Cert.KernelIdeal.Gen Idealize.ShloMosaic Idealize.ShloMosaic.ValueIdx

/-! ## The operations before the region, read at an index

On the extended reals a change of float format is the identity; a reshape keeps the row-major position; the padded
second weight matrix has the original's entries in its first two columns. -/

/-- Narrowing the first weight matrix to the 16-bit format changes nothing on the extended reals. -/
theorem truncf_w1 (W : FVec Ideal S128x128 .f32) :
    (truncf .bf16 W bitsLt_bf16_f32 : FVec Ideal S128x128 .bf16) = W := rfl

/-- The same as a function of the matrix: narrowing is the identity map. -/
theorem truncf_w1_fun :
    ((fun W => truncf .bf16 W bitsLt_bf16_f32) : FVec Ideal S128x128 .f32 → FVec Ideal S128x128 .bf16) = fun W => W := rfl

/-- Narrowing the padded second weight matrix to the 16-bit format changes nothing on the extended reals. -/
theorem truncf_w2p (W : FVec Ideal S128x8 .f32) :
    (truncf .bf16 W bitsLt_bf16_f32 : FVec Ideal S128x8 .bf16) = W := rfl

/-- The same as a function of the matrix: narrowing is the identity map. -/
theorem truncf_w2p_fun :
    ((fun W => truncf .bf16 W bitsLt_bf16_f32) : FVec Ideal S128x8 .f32 → FVec Ideal S128x8 .bf16) = fun W => W := rfl

/-- The first bias as a one-row matrix: entry `(0, k)` is entry `k`. -/
theorem reshape_b1_at {α : Type} (b : S128.Idx → α) (k : Fin 128) :
    shapeCast S1x128 b shapeCasts_S128_S1x128 (ix2 (0 : Fin 1) k) = b (ix1 k) :=
  shapeCast_a_1a_apply b shapeCasts_S128_S1x128 (0 : Fin 1) k

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The second bias as a one-column matrix: entry `(c, 0)` is entry `c`. -/
theorem reshape_b2_at {α : Type} (b : S2.Idx → α) (c : Fin 2) :
    shapeCast S2x1 b shapeCasts_S2_S2x1 (ix2 c (0 : Fin 1)) = b (ix1 c) :=
  shapeCast_a_a1_apply b shapeCasts_S2_S2x1 c (0 : Fin 1)

/-- The second weight matrix padded with six more columns: in columns 0 and 1 it has the original's entries
    (whatever the padding value). -/
theorem pad_w2_at {α : Type} (W : S128x2.Idx → α) (v : S_.Idx → α) (k : Fin 128) (c : Fin 2) :
    pad S128x8 ![0, 0] ![0, 6] ![0, 0] W v pads_S128x2_S128x8_000_060 h_S_ (ix2 k (⟨c.val, by omega⟩ : Fin 8))
      = W (ix2 k c) :=
  pad_apply_of_inside _ _ _ W v pads_S128x2_S128x8_000_060 h_S_ _ (ix2 k c) (fun a => by
    match a with
    | ⟨0, _⟩ => show k.val = 0 + k.val * (0 + 1); omega
    | ⟨1, _⟩ => show c.val = 0 + c.val * (0 + 1); omega)

/-! ## The operations after the region, read at an index -/

/-- The region's result `[10, 2, 10000]`, its last two axes swapped and the first two then merged: entry
    `(10000 b + r, c)` of the final array is entry `(b, c, r)` of the region's result. -/
theorem tail_at {α : Type} (y : S10x2x10000.Idx → α) (b : Fin 10) (r : Fin 10000) (c : Fin 2) :
    shapeCast S100000x2 (transpose S10x10000x2 [0, 2, 1] y transposes_S10x2x10000_S10x10000x2_0_2_1)
        shapeCasts_S10x10000x2_S100000x2 (ix2 (⟨b.val * 10000 + r.val, by omega⟩ : Fin 100000) c)
      = y (ix3 b c r) := by
  refine (shapeCast_apply _ shapeCasts_S10x10000x2_S100000x2 _ (ix3 b r c) ?_).trans
    (transpose_ix3_021_apply y transposes_S10x2x10000_S10x10000x2_0_2_1 b r c)
  rw [Shape.rowMajor_val_three, Shape.rowMajor_val_two]
  rfl

end Cert.KernelIdeal.HostAt

end
-- ==== Proof.KI.EntryAt.lean ====
/-
  The kernel's operands, and the final array, entry by entry.

  When the region is entered its operands are simple functions of the argument arrays: the first weight matrix
  itself (narrowing a float format is the identity on the extended reals), the first bias as the one row of a
  [1, 128] matrix, the second weight matrix in the first two of eight columns, and the second bias as the one column
  of a [2, 1] matrix. After the region the result [10, 2, 10000] has its last two axes swapped and its first two axes
  then merged, so entry (10000·b + r, c) of the final [100000, 2] array is entry (b, c, r) of what the region left.

  Each statement first names the array as the host operations' term of the argument arrays — every host operation
  writes one fresh array, so an array's contents are those of the operation that wrote it, applied to the contents of
  that operation's operands — and then reads that term at the index.
-/
import proofs.«138238_g67224828117284_cont_sun_c4_631_35_alg».proof.Proof.KI.Entry
import proofs.«138238_g67224828117284_cont_sun_c4_631_35_alg».proof.Proof.HostAt
import Idealize.ShloMosaic.Lib.StableHlo.Run
import Idealize.ShloMosaic.Lib.ValueIdx
import Idealize.ShloMosaic.PureOps.Ideal

noncomputable section

namespace Cert.KernelIdeal.HandAt

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

/-! ## The operands when the region is entered -/

/-- The first weight matrix reaches the region unchanged: narrowing its float format is the identity on the
    extended reals. -/
theorem V_v0 (c : Dev nD) :
    (V m c main_v0 : S128x128.Idx → EReal) = (m ((c : Thread nD τ).loc main_arg1) : S128x128.Idx → EReal) := by
  show StableHlo.after hostOps0_2 (StableHlo.after hostOps0_1 (StableHlo.after hostOps0 (Va m c))) (Proc.devRef .tc main_v0) = _
  after_results <;> rfl

/-- The first bias reaches the region as a one-row matrix, … -/
theorem V_v1_eq (c : Dev nD) :
    (V m c main_v1 : S1x128.Idx → EReal)
      = shapeCast S1x128 (m ((c : Thread nD τ).loc main_arg2) : S128.Idx → EReal) shapeCasts_S128_S1x128 := by
  show StableHlo.after hostOps0_2 (StableHlo.after hostOps0_1 (StableHlo.after hostOps0 (Va m c))) (Proc.devRef .tc main_v1) = _
  after_results <;> rfl

/-- … whose entry `(0, k)` is the bias's entry `k`. -/
theorem V_v1 (c : Dev nD) (k : Fin 128) :
    (V m c main_v1 : S1x128.Idx → EReal) (ix2 (0 : Fin 1) k) = (m ((c : Thread nD τ).loc main_arg2) : S128.Idx → EReal) (ix1 k) := by
  rw [V_v1_eq]
  exact HostAt.reshape_b1_at _ k

/-- The second weight matrix reaches the region with six more columns (filled with the number the integer zero
    converts to) and its float format narrowed, which is the identity, … -/
theorem V_v3_eq (c : Dev nD) :
    (V m c main_v3 : S128x8.Idx → EReal)
      = pad S128x8 ![0, 0] ![0, 6] ![0, 0] (m ((c : Thread nD τ).loc main_arg3) : S128x2.Idx → EReal)
          (sitofp (F := Ideal) .f32 (constantI S_ 32 0#32)) pads_S128x2_S128x8_000_060 h_S_ := by
  show StableHlo.after hostOps0_2 (StableHlo.after hostOps0_1 (StableHlo.after hostOps0 (Va m c))) (Proc.devRef .tc main_v3) = _
  after_results <;> rfl

/-- … so in columns 0 and 1 it has the original's entries. -/
theorem V_v3 (c : Dev nD) (k : Fin 128) (cls : Fin 2) :
    (V m c main_v3 : S128x8.Idx → EReal) (ix2 k (⟨cls.val, by omega⟩ : Fin 8))
      = (m ((c : Thread nD τ).loc main_arg3) : S128x2.Idx → EReal) (ix2 k cls) := by
  rw [V_v3_eq]
  exact HostAt.pad_w2_at _ _ k cls

/-- The second bias reaches the region as a one-column matrix, … -/
theorem V_v4_eq (c : Dev nD) :
    (V m c main_v4 : S2x1.Idx → EReal)
      = shapeCast S2x1 (m ((c : Thread nD τ).loc main_arg4) : S2.Idx → EReal) shapeCasts_S2_S2x1 := by
  show StableHlo.after hostOps0_2 (StableHlo.after hostOps0_1 (StableHlo.after hostOps0 (Va m c))) (Proc.devRef .tc main_v4) = _
  after_results <;> rfl

/-- … whose entry `(c, 0)` is the bias's entry `c`. -/
theorem V_v4 (c : Dev nD) (cls : Fin 2) :
    (V m c main_v4 : S2x1.Idx → EReal) (ix2 cls (0 : Fin 1)) = (m ((c : Thread nD τ).loc main_arg4) : S2.Idx → EReal) (ix1 cls) := by
  rw [V_v4_eq]
  exact HostAt.reshape_b2_at _ cls

/-! ## The final array -/

/-- The final array is what the region left in its result array, with the last two axes swapped and the first two
    then merged, … -/
theorem Vf_v7_eq (c : Dev nD) (o : Buf (Elt Ideal) ((c : Thread nD τ).loc main_v5)) :
    (VfOf m c o (Proc.devRef .tc main_v7) : S100000x2.Idx → EReal)
      = shapeCast S100000x2 (transpose S10x10000x2 [0, 2, 1] (o : S10x2x10000.Idx → EReal) transposes_S10x2x10000_S10x10000x2_0_2_1)
          shapeCasts_S10x10000x2_S100000x2 := by
  show StableHlo.after hostOps1 (VeOf m c o) (Proc.devRef .tc main_v7) = _
  after_results
  rw [VeOf_v5]
  rfl

/-- … so its entry `(10000 b + r, c)` is the region's entry `(b, c, r)`. -/
theorem Vf_v7 (c : Dev nD) (o : Buf (Elt Ideal) ((c : Thread nD τ).loc main_v5)) (b : Fin 10) (r : Fin 10000) (cls : Fin 2) :
    (VfOf m c o (Proc.devRef .tc main_v7) : S100000x2.Idx → EReal) (ix2 (⟨b.val * 10000 + r.val, by omega⟩ : Fin 100000) cls)
      = (o : S10x2x10000.Idx → EReal) (ix3 b cls r) := by
  rw [Vf_v7_eq]
  exact HostAt.tail_at _ b r cls

end Cert.KernelIdeal.HandAt

end
-- ==== Proof.KI.Value.lean ====
/-
  What the kernel computes.

  The kernel's result array has shape 10 × 2 × 10000: entry `(b, c, r)` is the result for row `b · 10000 + r` of the
  input and class `c`. Grid point `t` writes slabs `2t` and `2t + 1` of it, each from one row block of the input, and
  each entry it writes is the specification's result for that row and class: the row block's rows are rows of the
  input, and the parameter buffers hold the parameters as the host lines before the region prepared them (converted,
  reshaped, padded with two of eight columns kept). The five points' slabs tile the array, so the array ends as that
  function everywhere. The last stretch of host lines swaps the last two axes and flattens the first two, which puts
  entry `(b, c, r)` at row `b · 10000 + r`, column `c` of the final result: the final result is the specification's.
-/
import proofs.«138238_g67224828117284_cont_sun_c4_631_35_alg».proof.Proof.KI.Frame
import proofs.«138238_g67224828117284_cont_sun_c4_631_35_alg».proof.Proof.KI.BlockAt
import proofs.«138238_g67224828117284_cont_sun_c4_631_35_alg».proof.Proof.KI.Blocks
import proofs.«138238_g67224828117284_cont_sun_c4_631_35_alg».proof.Proof.KI.EntryAt
import Idealize.ShloMosaic.Lib.Pipeline.Value

set_option maxRecDepth 16384

noncomputable section

namespace Cert.KernelIdeal.HandValue

open Cert.KernelIdeal Cert.KernelIdeal.Gen Cert.KernelIdeal.Hand Cert.KernelIdeal.HandAt Cert.KernelIdeal.HandBlocks
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The five argument arrays as launched, as functions of an index. -/
abbrev aX (c : Dev nD) : S100000x128.Idx → EReal := m ((c : Thread nD τ).loc main_arg0)
abbrev aW1 (c : Dev nD) : S128x128.Idx → EReal := m ((c : Thread nD τ).loc main_arg1)
abbrev aB1 (c : Dev nD) : S128.Idx → EReal := m ((c : Thread nD τ).loc main_arg2)
abbrev aW2 (c : Dev nD) : S128x2.Idx → EReal := m ((c : Thread nD τ).loc main_arg3)
abbrev aB2 (c : Dev nD) : S2.Idx → EReal := m ((c : Thread nD τ).loc main_arg4)

/-- Row `r` of slab `b` is row `b · 10000 + r` of the input. -/
def rowOf (b : Fin 10) (r : Fin 10000) : Fin 100000 := ⟨b.val * 10000 + r.val, by have := b.isLt; have := r.isLt; omega⟩

/-- The kernel's result array as one function: entry `(b, c, r)` is the specification's result for row
    `b · 10000 + r` and class `c`. -/
def Gout (c : Dev nD) : S10x2x10000.Idx → EReal := fun i =>
  Cert.Mlp.logits (aX m c) (aW1 m c) (aB1 m c) (aW2 m c) (aB2 m c) (ix2 (rowOf (i 0) (i 2)) (i 1))

/-- WHAT POINT `t` WRITES BACK is its block of that function. -/
theorem flushed_eq (c : Dev nD) (t : Fin cfg0.N) :
    (dats m 0 c).flushed 6 t = ((cfg0.win 6).blk t).view.read (Elt Ideal) (Gout m c) := by
  show (cfg0.win 6).cut (grid0.coords t) ((dats m 0 c).after 6 t) = _
  rw [after6]
  funext j
  obtain ⟨s, cls, r, rfl⟩ : ∃ (s : Fin 2) (cls : Fin 2) (r : Fin 10000), j = ix3 s cls r := ⟨j 0, j 1, j 2, eq_ix3 j⟩
  show outBlock (iblk m c 0 t) (iblk m c 1 t) (iblk m c 2 t) (iblk m c 3 t) (iblk m c 4 t) (iblk m c 5 t) (ix3 s cls r)
    = Gout m c (((cfg0.win 6).blk t).view.emb (ix3 s cls r))
  rw [emb6 t s cls r]
  have hw1 : ∀ j k : Fin 128, (iblk m c 2 t : S128x128.Idx → EReal) (ix2 j k) = aW1 m c (ix2 j k) :=
    fun j k => (congrFun (iblk2_eq m c t) _).trans (congrFun (V_v0 m c) _)
  have hb1 : ∀ k : Fin 128, (iblk m c 3 t : S1x128.Idx → EReal) (ix2 (0 : Fin 1) k) = aB1 m c (ix1 k) :=
    fun k => (congrFun (iblk3_eq m c t) _).trans (V_v1 m c k)
  have hw2 : ∀ k : Fin 128, (iblk m c 4 t : S128x8.Idx → EReal) (ix2 k (⟨cls.val, by omega⟩ : Fin 8)) = aW2 m c (ix2 k cls) :=
    fun k => (congrFun (iblk4_eq m c t) _).trans (V_v3 m c k cls)
  have hb2 : (iblk m c 5 t : S2x1.Idx → EReal) (ix2 cls (0 : Fin 1)) = aB2 m c (ix1 cls) :=
    (congrFun (iblk5_eq m c t) _).trans (V_v4 m c cls)
  have ht : t.val < 5 := by have := t.isLt; have hN : cfg0.N = 5 := N_0; omega
  match s with
  | ⟨0, _⟩ =>
    refine outBlock_at0 (aX m c) (aW1 m c) (aB1 m c) (aW2 m c) (aB2 m c) _ _ _ _ _ _ _ cls r (fun j => ?_) hw1 hb1 hw2 hb2
    refine (iblk0_at m c t r j).trans ((congrFun (V_main_arg0 m c) _).trans ?_)
    exact congrArg (fun R : Fin 100000 => aX m c (ix2 R j)) (Fin.ext (by show 2 * t.val * 10000 + r.val = (2 * t.val + 0) * 10000 + r.val; omega))
  | ⟨1, _⟩ =>
    refine outBlock_at1 (aX m c) (aW1 m c) (aB1 m c) (aW2 m c) (aB2 m c) _ _ _ _ _ _ _ cls r (fun j => ?_) hw1 hb1 hw2 hb2
    refine (iblk1_at m c t r j).trans ((congrFun (V_main_arg0 m c) _).trans ?_)
    exact congrArg (fun R : Fin 100000 => aX m c (ix2 R j)) (Fin.ext (by show (2 * t.val + 1) * 10000 + r.val = (2 * t.val + 1) * 10000 + r.val; omega))

/-- THE RESULT ARRAY after the five write-backs: the slabs tile it. -/
theorem out_eq (c : Dev nD) : outArr m c = Gout m c :=
  (dats m 0 c).arrAt_eq_of_cover 6 (Gout m c) (fun t _ => flushed_eq m c t) cover6

/-- THE FINAL RESULT is the specification's, index by index. -/
theorem result_eq (c : Dev nD) :
    (Vf m c (Proc.devRef .tc main_v7) : S100000x2.Idx → EReal) = Cert.Mlp.logits (aX m c) (aW1 m c) (aB1 m c) (aW2 m c) (aB2 m c) := by
  funext i
  obtain ⟨R, cls, rfl⟩ : ∃ (R : Fin 100000) (cls : Fin 2), i = ix2 R cls := ⟨i 0, i 1, eq_ix2 i⟩
  have hb : R.val / 10000 < 10 := by have := R.isLt; omega
  have hr : R.val % 10000 < 10000 := Nat.mod_lt _ (by norm_num)
  have hR : rowOf ⟨R.val / 10000, hb⟩ ⟨R.val % 10000, hr⟩ = R :=
    Fin.ext (by show R.val / 10000 * 10000 + R.val % 10000 = R.val; omega)
  -- row `R` is row `R mod 10000` of slab `R div 10000`
  refine (congrArg (fun R' : Fin 100000 => (Vf m c (Proc.devRef .tc main_v7) : S100000x2.Idx → EReal) (ix2 R' cls)) hR.symm).trans ?_
  refine (Vf_v7 m c (outArr m c) ⟨R.val / 10000, hb⟩ ⟨R.val % 10000, hr⟩ cls).trans ?_
  refine (congrFun (out_eq m c) (ix3 (⟨R.val / 10000, hb⟩ : Fin 10) cls (⟨R.val % 10000, hr⟩ : Fin 10000))).trans ?_
  exact congrArg (fun R' : Fin 100000 => Cert.Mlp.logits (aX m c) (aW1 m c) (aB1 m c) (aW2 m c) (aB2 m c) (ix2 R' cls)) hR

/-- THE KERNEL'S RUN, read: every weakly fair execution terminates, nothing faulting, with the final result the
    specification's function of the five argument arrays as launched, and those arrays unchanged. -/
theorem kernel_run : θ_run defs (onTc (τ := τ) (main (F := Ideal))) ⟨m, fun _ => 0, ρ⟩ (fun r => ∀ c : Dev nD,
      r.2.mem ((c.tc : Thread nD τ).loc main_v7)
        = Cert.Mlp.logits (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩) (run_args m ρ)

end Cert.KernelIdeal.HandValue

end
-- ==== Proof.RefIsSpec.lean ====
/-
  The reference program computes the specification.

  The reference is the textbook two-layer perceptron written with array operations: a contraction of the input
  with `W1` over the 128 features, the bias `b1` broadcast along the rows, the positive part taken as a maximum with a
  broadcast zero, a second contraction with `W2` over the 128 hidden units, and the bias `b2` broadcast along the rows.
  On the extended reals every one of these operations is the exact one, so reading the composed term at an index
  `(r, c)` gives, operation by operation,
      ∑ₖ max (∑ⱼ x[r, j] · W1[j, k] + b1[k]) 0 · W2[k, c] + b2[c],
  which is the specification's entry `(r, c)` as it is written. Nothing is rearranged and no entry needs to be finite.

  The proof has two layers, like the function. `hidden_at`: the array after the maximum, at `(r, k)`, is the
  specification's hidden activation `h(r, k)`. `result_eq`: the final array, at `(r, c)`, is the second affine form
  of those activations. The only work is to say where each array operation reads its operands: a contraction reads
  row `r` of its left operand and column `c` of its right operand at the summation index, and a bias broadcast along
  the rows reads the bias at the column.
-/
import proofs.«138238_g67224828117284_cont_sun_c4_631_35_alg».proof.Proof.Gen.ReferenceIdeal.Read
import proofs.«138238_g67224828117284_cont_sun_c4_631_35_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## Where each operation reads its operands -/

/-- The first contraction, at `(r, k)` and summation index `j`, reads the input at `(r, j)` … -/
theorem lidx_v0 (r : Fin 100000) (k j : Fin 128) : lidx_main_v0 (ix2 r k) j = ix2 r j :=
  funext fun a => Fin.ext (by match a with | ⟨0, _⟩ => rfl | ⟨1, _⟩ => rfl)
/-- … and the first weight matrix at `(j, k)`. -/
theorem ridx_v0 (r : Fin 100000) (k j : Fin 128) : ridx_main_v0 (ix2 r k) j = ix2 j k :=
  funext fun a => Fin.ext (by match a with | ⟨0, _⟩ => rfl | ⟨1, _⟩ => rfl)
/-- The first bias, broadcast to a row and then along the rows, is read at the column `k`. -/
theorem idx_v1_v2 (r : Fin 100000) (k : Fin 128) : idx_main_v1 (idx_main_v2 (ix2 r k)) = ix1 k :=
  funext fun a => Fin.ext (by match a with | ⟨0, _⟩ => rfl)
/-- The second contraction, at `(r, c)` and summation index `k`, reads the activations at `(r, k)` … -/
theorem lidx_v5 (r : Fin 100000) (c : Fin 2) (k : Fin 128) : lidx_main_v5 (ix2 r c) k = ix2 r k :=
  funext fun a => Fin.ext (by match a with | ⟨0, _⟩ => rfl | ⟨1, _⟩ => rfl)
/-- … and the second weight matrix at `(k, c)`. -/
theorem ridx_v5 (r : Fin 100000) (c : Fin 2) (k : Fin 128) : ridx_main_v5 (ix2 r c) k = ix2 k c :=
  funext fun a => Fin.ext (by match a with | ⟨0, _⟩ => rfl | ⟨1, _⟩ => rfl)
/-- The second bias, broadcast to a row and then along the rows, is read at the column `c`. -/
theorem idx_v6_v7 (r : Fin 100000) (c : Fin 2) : idx_main_v6 (idx_main_v7 (ix2 r c)) = ix1 c :=
  funext fun a => Fin.ext (by match a with | ⟨0, _⟩ => rfl)

/-! ## The hidden layer -/

/-- The array after the maximum with zero, at `(r, k)`, is the specification's activation of unit `k` on row `r`:
    the positive part of `∑ⱼ x[r, j] · W1[j, k] + b1[k]`. -/
theorem hidden_at (x : FVec Ideal S100000x128 .f32) (W1 : FVec Ideal S128x128 .f32) (b1 : FVec Ideal S128 .f32)
    (r : Fin 100000) (k : Fin 128) :
    val_main_v4 (F := Ideal) x W1 b1 (ix2 r k) = Cert.Mlp.hidden x W1 b1 r k := by
  rw [val_main_v4_apply, val_main_v3_apply, val_main_v0_apply, val_main_v2_apply, val_main_v1_apply,
    val_main_call0_v0_apply, val_main_call0_cst_apply, idx_v1_v2]
  simp only [lidx_v0, ridx_v0, Ideal.maximumf_def, Ideal.addf_def, Ideal.ofBits_def, Ideal.ofBits_zero_f32]
  rfl

/-! ## The result -/

/-- The reference's result, as the composed term of its five argument arrays, is the specification: entry `(r, c)`
    is `∑ₖ h(r, k) · W2[k, c] + b2[c]`. -/
theorem result_eq (x : FVec Ideal S100000x128 .f32) (W1 : FVec Ideal S128x128 .f32) (b1 : FVec Ideal S128 .f32)
    (W2 : FVec Ideal S128x2 .f32) (b2 : FVec Ideal S2 .f32) :
    addf (Host.dotGeneral dot_S100000x128_S128x2_S100000x2_1_0_0_1_n_n none (maximumf (addf (Host.dotGeneral dot_S100000x128_S128x128_S100000x128_1_0_0_1_n_n none (x) (W1)) (broadcastInDim S100000x128 ![0, 1] bcast_S1x128_S100000x128_0_1 (broadcastInDim S1x128 ![1] bcast_S128_S1x128_1 (b1)))) (broadcastInDim S100000x128 ![] bcast_S_S100000x128 (constant (F := Ideal) S_ .f32 0x00000000#32))) (W2)) (broadcastInDim S100000x2 ![0, 1] bcast_S1x2_S100000x2_0_1 (broadcastInDim S1x2 ![1] bcast_S2_S1x2_1 (b2)))
      = Cert.Mlp.logits x W1 b1 W2 b2 := by
  rw [val_main_v8_eq]
  funext i
  obtain ⟨r, c, rfl⟩ : ∃ (r : Fin 100000) (c : Fin 2), i = ix2 r c := ⟨i 0, i 1, eq_ix2 i⟩
  rw [val_main_v8_apply, val_main_v5_apply, val_main_v7_apply, val_main_v6_apply, idx_v6_v7]
  simp only [lidx_v5, ridx_v5, hidden_at, Ideal.addf_def]
  rfl

end Cert.ReferenceIdeal.RefValue

end
-- ==== Proof.RefClaims.lean ====
/-
  The reference program's two claims.

  Its frame: every weakly fair execution of the reference terminates without a fault and leaves its five argument
  arrays as they were. The reference is a straight line of array operations, each writing a fresh array, so this is
  its run with the statement about the result dropped.

  Its value: the result array ends at the specification of the five argument arrays — entry `(r, c)` is
  `∑ₖ max (∑ⱼ x[r, j] · W1[j, k] + b1[k]) 0 · W2[k, c] + b2[c]` on the extended reals — which is the run's composed term
  read index by index (`RefValue.result_eq`). This is the reference's half of the comparison of the two programs:
  the other program's result is shown to be the same function of the same arrays.
-/
import proofs.«138238_g67224828117284_cont_sun_c4_631_35_alg».proof.Defs
import proofs.«138238_g67224828117284_cont_sun_c4_631_35_alg».proof.Proof.Gen.ReferenceIdeal
import proofs.«138238_g67224828117284_cont_sun_c4_631_35_alg».proof.Proof.Gen.ReferenceIdeal.Run
import proofs.«138238_g67224828117284_cont_sun_c4_631_35_alg».proof.Proof.Gen.Pre_finite_inputs
import proofs.«138238_g67224828117284_cont_sun_c4_631_35_alg».proof.Proof.Spec
import proofs.«138238_g67224828117284_cont_sun_c4_631_35_alg».proof.Proof.RefIsSpec

noncomputable section

namespace Cert.Proof.RefClaims

open Idealize.ShloMosaic Idealize.ShloMosaic.TcCoe Idealize.SL.Sem

/-- The reference terminates, faults nowhere, and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- From any memory, the reference terminates with its result array at the specification of its five argument
    arrays as that memory holds them, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v8) = Cert.Mlp.logits (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans (Cert.ReferenceIdeal.RefValue.result_eq _ _ _ _ _), (h c).2⟩)
    (Cert.ReferenceIdeal.Value.run (F := Ideal) m' ρ')

end Cert.Proof.RefClaims

end
-- ==== Proof.lean ====
/-
  The certificate's claim.

  The kernel is a perceptron with one hidden layer, computed block by block: for 100000 rows of 128 features,
      out[r, c] = ∑ₖ max (∑ⱼ x[r, j] · W1[j, k] + b1[k]) 0 · W2[k, c] + b2[c],        c < 2.
  Each of its five grid points takes two blocks of 10000 rows, forms their hidden layers, and writes their outputs
  transposed (class first, row second), the second weight matrix padded from two columns to eight of which two are
  kept; the host operations after the region swap the axes back and merge the blocks into the [100000, 2] result.
  The reference computes the same expression with whole-array operations.

  Three of the five conjuncts say that each program runs to its end without a fault and leaves its arguments as
  launched. One says the reading of the kernel on the extended reals rewrote nothing. The last says that on the
  extended reals, where every float operation is the exact one and a change of float format is the identity, both
  programs end with the displayed function of their arguments: the kernel's product W2[k, c] · h(r, k) and the
  reference's h(r, k) · W2[k, c] differ by the commutativity of multiplication, and the padded matrix has the
  original's entries in the two columns that are kept. No entry needs to be finite.
-/
import proofs.«138238_g67224828117284_cont_sun_c4_631_35_alg».proof.Defs
import proofs.«138238_g67224828117284_cont_sun_c4_631_35_alg».proof.Proof.Gen.Kernel
import proofs.«138238_g67224828117284_cont_sun_c4_631_35_alg».proof.Proof.Gen.KernelIdeal
import proofs.«138238_g67224828117284_cont_sun_c4_631_35_alg».proof.Proof.Gen.ReferenceIdeal
import proofs.«138238_g67224828117284_cont_sun_c4_631_35_alg».proof.Proof.Gen.Pre_finite_inputs
import proofs.«138238_g67224828117284_cont_sun_c4_631_35_alg».proof.Proof.K.Frame
import proofs.«138238_g67224828117284_cont_sun_c4_631_35_alg».proof.Proof.KI.Frame
import proofs.«138238_g67224828117284_cont_sun_c4_631_35_alg».proof.Proof.KI.Value
import proofs.«138238_g67224828117284_cont_sun_c4_631_35_alg».proof.Proof.RefClaims

noncomputable section

namespace Cert.Proof

open Idealize.ShloMosaic Idealize.ShloMosaic.TcCoe Idealize.SL.Sem

/-- The word-level kernel terminates, faults nowhere, and leaves its five argument arrays as launched: no host
    operation writes an argument, and the region only reads the windows it has on them. -/
theorem frame_p : Cert.frame_Kernel := fun m ρ _ => Cert.Kernel.Hand.frame m ρ

/-- The same for the kernel read on the extended reals: the argument is about which arrays are written, not about
    what is computed, so it is the same at either reading of the floats. -/
theorem frame_pi : Cert.frame_KernelIdeal := fun m ρ _ => Cert.KernelIdeal.Hand.frame m ρ

/-- Nothing was rewritten to pass from the word-level kernel to its reading on the extended reals, so there is
    nothing to preserve. -/
theorem preserves : Cert.preserves_Kernel_KernelIdeal := trivial

/-- On the extended reals the two programs compute one function. From memories that agree on the five argument
    arrays, the kernel's final array and the reference's result are both the perceptron's output
        out[r, c] = ∑ₖ max (∑ⱼ x[r, j] · W1[j, k] + b1[k]) 0 · W2[k, c] + b2[c]
    of those arrays — the kernel's by reading its blocks back through the transposition and the merge of axes, the
    reference's operation by operation — so they are equal entry by entry, and each run leaves its arguments
    unchanged. The common value is stated over the kernel's arguments; the reference's are the same arrays. -/
theorem algebraic : Cert.algebraic_KernelIdeal_ReferenceIdeal := fun m ρ m' ρ' _ hagree =>
  ⟨fun c => Cert.Mlp.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.HandValue.kernel_run m ρ,
    (θ_run Cert.ReferenceIdeal.defs _ _).mono
      (fun _ h c => ⟨by
        rw [(h c).1, (hagree c).1, (hagree c).2.1, (hagree c).2.2.1, (hagree c).2.2.2.1, (hagree c).2.2.2.2], (h c).2⟩)
      (Cert.Proof.RefClaims.ref_run m' ρ')⟩

/-- Everything claimed: the three programs run and keep their arguments, the reading on the extended reals
    rewrote nothing, and on the extended reals the kernel and the reference agree. -/
theorem claim : Cert.Claim :=
  ⟨Cert.Kernel.Gen.facts, Cert.KernelIdeal.Gen.facts, Cert.ReferenceIdeal.Gen.facts, Cert.Pre_finite_inputs.Gen.facts,
    frame_p, frame_pi, Cert.Proof.RefClaims.frame_ri, preserves, algebraic⟩

end Cert.Proof

end
